-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x32x32 : Shape := ⟨4, ![32, 256, 32, 32]⟩
abbrev S256x32 : Shape := ⟨2, ![256, 32]⟩
abbrev S32x512 : Shape := ⟨2, ![32, 512]⟩
abbrev S_ : Shape := ⟨0, ![]⟩

class Facts : Prop where
  bcast_S_S32x256x32x32 : S_.BroadcastsInDim S32x256x32x32 (![] : Fin 0 → Fin S32x256x32x32.rank)
  reducesTo_S32x256x32x32_S_d0_1_2_3 : S32x256x32x32.ReducesTo [0, 1, 2, 3] S_
  h_S_ : 0 < S_.numel
  bcast_S_S256x32 : S_.BroadcastsInDim S256x32 (![] : Fin 0 → Fin S256x32.rank)
  reducesTo_S256x32_S_d0_1 : S256x32.ReducesTo [0, 1] S_
  bcast_S_S32x512 : S_.BroadcastsInDim S32x512 (![] : Fin 0 → Fin S32x512.rank)
  reducesTo_S32x512_S_d0_1 : S32x512.ReducesTo [0, 1] S_

variable [Facts]

def fn_part1 {F : FTy → Type} [FloatOps F] (main_v13 : IVec S_ 1) (main_v16 : IVec S32x512 1) : IVec S_ 1 :=
  let main_c_5 : IVec S_ 1 := constantI S_ 1 1#1
  let main_v17 : IVec S_ 1 := (fun x v => Host.reduce IntOp.andi x v reducesTo_S32x512_S_d0_1 h_S_) main_v16 main_c_5
  let main_v18 : IVec S_ 1 := andi main_v13 main_v17
  main_v18

def fn {F : FTy → Type} [FloatOps F] (main_arg0 : FVec F S32x256x32x32 .f32) (main_arg1 : FVec F S32x256x32x32 .f32) (main_arg2 : FVec F S256x32 .f32) (main_arg3 : FVec F S32x512 .f32) : IVec S_ 1 :=
  let main_v0 : FVec F S32x256x32x32 .f32 := Host.absf main_arg0
  let main_cst : FVec F S_ .f32 := constant S_ .f32 0x7F800000#32
  let main_v1 : FVec F S32x256x32x32 .f32 := broadcastInDim S32x256x32x32 ![] bcast_S_S32x256x32x32 main_cst
  let main_v2 : IVec S32x256x32x32 1 := cmpf .olt main_v0 main_v1
  let main_c : IVec S_ 1 := constantI S_ 1 1#1
  let main_v3 : IVec S_ 1 := (fun x v => Host.reduce IntOp.andi x v reducesTo_S32x256x32x32_S_d0_1_2_3 h_S_) main_v2 main_c
  let main_v4 : FVec F S32x256x32x32 .f32 := Host.absf main_arg1
  let main_cst_0 : FVec F S_ .f32 := constant S_ .f32 0x7F800000#32
  let main_v5 : FVec F S32x256x32x32 .f32 := broadcastInDim S32x256x32x32 ![] bcast_S_S32x256x32x32 main_cst_0
  let main_v6 : IVec S32x256x32x32 1 := cmpf .olt main_v4 main_v5
  let main_c_1 : IVec S_ 1 := constantI S_ 1 1#1
  let main_v7 : IVec S_ 1 := (fun x v => Host.reduce IntOp.andi x v reducesTo_S32x256x32x32_S_d0_1_2_3 h_S_) main_v6 main_c_1
  let main_v8 : IVec S_ 1 := andi main_v3 main_v7
  let main_v9 : FVec F S256x32 .f32 := Host.absf main_arg2
  let main_cst_2 : FVec F S_ .f32 := constant S_ .f32 0x7F800000#32
  let main_v10 : FVec F S256x32 .f32 := broadcastInDim S256x32 ![] bcast_S_S256x32 main_cst_2
  let main_v11 : IVec S256x32 1 := cmpf .olt main_v9 main_v10
  let main_c_3 : IVec S_ 1 := constantI S_ 1 1#1
  let main_v12 : IVec S_ 1 := (fun x v => Host.reduce IntOp.andi x v reducesTo_S256x32_S_d0_1 h_S_) main_v11 main_c_3
  let main_v13 : IVec S_ 1 := andi main_v8 main_v12
  let main_v14 : FVec F S32x512 .f32 := Host.absf main_arg3
  let main_cst_4 : FVec F S_ .f32 := constant S_ .f32 0x7F800000#32
  let main_v15 : FVec F S32x512 .f32 := broadcastInDim S32x512 ![] bcast_S_S32x512 main_cst_4
  let main_v16 : IVec S32x512 1 := cmpf .olt main_v14 main_v15
  fn_part1 (F := F) main_v13 main_v16
-- ==== Kernel.lean ====
abbrev S32x256x32x32 : Shape := ⟨4, ![32, 256, 32, 32]⟩
abbrev S256x32 : Shape := ⟨2, ![256, 32]⟩
abbrev S32x512 : Shape := ⟨2, ![32, 512]⟩
abbrev S32x32x32x256 : Shape := ⟨4, ![32, 32, 32, 256]⟩
abbrev S32x1024x256 : Shape := ⟨3, ![32, 1024, 256]⟩
abbrev S4x1024x256 : Shape := ⟨3, ![4, 1024, 256]⟩
abbrev S4x256 : Shape := ⟨2, ![4, 256]⟩
abbrev S4x32 : Shape := ⟨2, ![4, 32]⟩
abbrev S4x512 : Shape := ⟨2, ![4, 512]⟩
abbrev S4x1x256 : Shape := ⟨3, ![4, 1, 256]⟩

abbrev nBuf : Space → Nat
  | .hbm => 11
  | .vmem => 8
  | .smem => 0
  | _ => 0

abbrev bufTy : (tb : Table) → Fin (tcTables nBuf tb) → BufTy
  | .hbm, ⟨0, _⟩ => ⟨S32x256x32x32, .f32⟩
  | .hbm, ⟨1, _⟩ => ⟨S32x256x32x32, .f32⟩
  | .hbm, ⟨2, _⟩ => ⟨S256x32, .f32⟩
  | .hbm, ⟨3, _⟩ => ⟨S32x512, .f32⟩
  | .hbm, ⟨4, _⟩ => ⟨S32x32x32x256, .f32⟩
  | .hbm, ⟨5, _⟩ => ⟨S32x1024x256, .f32⟩
  | .hbm, ⟨6, _⟩ => ⟨S32x32x32x256, .f32⟩
  | .hbm, ⟨7, _⟩ => ⟨S32x1024x256, .f32⟩
  | .hbm, ⟨8, _⟩ => ⟨S32x1024x256, .f32⟩
  | .hbm, ⟨9, _⟩ => ⟨S32x32x32x256, .f32⟩
  | .hbm, ⟨10, _⟩ => ⟨S32x256x32x32, .f32⟩
  | .local _ .vmem, ⟨0, _⟩ => ⟨S256x32, .f32⟩
  | .local _ .vmem, ⟨1, _⟩ => ⟨S32x512, .f32⟩
  | .local _ .vmem, ⟨2, _⟩ => ⟨S4x1024x256, .f32⟩
  | .local _ .vmem, ⟨3, _⟩ => ⟨S4x1024x256, .f32⟩
  | .local _ .vmem, ⟨4, _⟩ => ⟨S4x1024x256, .f32⟩
  | .local _ .vmem, ⟨5, _⟩ => ⟨S4x1024x256, .f32⟩
  | .local _ .vmem, ⟨6, _⟩ => ⟨S4x1024x256, .f32⟩
  | .local _ .vmem, ⟨7, _⟩ => ⟨S4x1024x256, .f32⟩
  | _, _ => ⟨S32x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  let c0_i32_1 : BitVec 32 := 0#32
  ![v1.toNat, c0_i32.toNat, c0_i32_0.toNat]

abbrev stage0_0 : Fin 1 → Memref sig .tc .vmem S256x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S32x256x32x32_S32x32x32x256_0_2_3_1 : S32x256x32x32.Transposes [0, 2, 3, 1] S32x32x32x256
  shapeCasts_S32x32x32x256_S32x1024x256 : S32x32x32x256.ShapeCasts S32x1024x256
  inb_S4x1024x256_S4x1024x256_0_0_0 : ∀ a, (![0, 0, 0] : Fin 3 → Nat) a + S4x1024x256.size a ≤ S4x1024x256.size a
  h_S4x1024x256 : 0 < S4x1024x256.numel
  shapeCasts_S4x1024x256_S4x1024x256 : S4x1024x256.ShapeCasts S4x1024x256
  reduces_S4x1024x256_S4x256 : S4x1024x256.Reduces [1] S4x256
  inb_S256x32_S256x32_0_0 : ∀ a, (![0, 0] : Fin 2 → Nat) a + S256x32.size a ≤ S256x32.size a
  h_S256x32 : 0 < S256x32.numel
  inb_S32x512_S32x512_0_0 : ∀ a, (![0, 0] : Fin 2 → Nat) a + S32x512.size a ≤ S32x512.size a
  h_S32x512 : 0 < S32x512.numel
  slices_S4x512_o0_0_S4x256 : S4x512.Slices ![0, 0] S4x256
  slices_S4x512_o0_256_S4x256 : S4x512.Slices ![0, 256] S4x256
  shapeCasts_S4x256_S4x1x256 : S4x256.ShapeCasts S4x1x256
  broadcasts_S4x1x256_S4x1024x256 : S4x1x256.Broadcasts S4x1024x256
  shapeCasts_S32x1024x256_S32x32x32x256 : S32x1024x256.ShapeCasts S32x32x32x256
  transposes_S32x32x32x256_S32x256x32x32_0_3_1_2 : S32x32x32x256.Transposes [0, 3, 1, 2] S32x256x32x32
  dot_S4x256_S256x32_S4x32_1_0_0_1_n_n_wf : DotDims.WF S4x256 S256x32 S4x32 [1] [0] [0] [1] [] []
  dot_S4x32_S32x512_S4x512_1_0_0_1_n_n_wf : DotDims.WF S4x32 S32x512 S4x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x32.size a ≤ S256x32.size a
  hwx0_0 : ∀ i : grid0.Coords, EltTy.bits .f32 = 32 ∨ (Rect.block (s := S256x32) S256x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1024x256.size a ≤ S32x1024x256.size a
  hwx0_2 : ∀ i : grid0.Coords, EltTy.bits .f32 = 32 ∨ (Rect.block (s := S32x1024x256) S4x1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1024x256.size a ≤ S32x1024x256.size a
  hwx0_3 : ∀ i : grid0.Coords, EltTy.bits .f32 = 32 ∨ (Rect.block (s := S32x1024x256) S4x1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x1024x256.size a ≤ S32x1024x256.size a
  hwx0_4 : ∀ i : grid0.Coords, EltTy.bits .f32 = 32 ∨ (Rect.block (s := S32x1024x256) S4x1024x256.size (cc0_transform_4 i) (hinb0_4 i)).WholeWords (EltTy.packing .f32)

variable [Facts₀]

def dot_S4x256_S256x32_S4x32_1_0_0_1_n_n : DotDims S4x256 S256x32 S4x32 where
  lhsContracting := [1]
  rhsContracting := [0]
  lhsNonContracting := [0]
  rhsNonContracting := [1]
  lhsBatch := []
  rhsBatch := []
  wf := dot_S4x256_S256x32_S4x32_1_0_0_1_n_n_wf
def dot_S4x32_S32x512_S4x512_1_0_0_1_n_n : DotDims S4x32 S32x512 S4x512 where
  lhsContracting := [1]
  rhsContracting := [0]
  lhsNonContracting := [0]
  rhsNonContracting := [1]
  lhsBatch := []
  rhsBatch := []
  wf := dot_S4x32_S32x512_S4x512_1_0_0_1_n_n_wf

abbrev win0_0 : Pipeline.Window sig grid0 :=
  Pipeline.Window.ofSpec (Memref.whole main_arg2) S256x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4x1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S4x1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x256x32x32 : Shape := ⟨4, ![32, 256, 32, 32]⟩
abbrev S256x32 : Shape := ⟨2, ![256, 32]⟩
abbrev S32x512 : Shape := ⟨2, ![32, 512]⟩
abbrev S8192x1024 : Shape := ⟨2, ![8192, 1024]⟩
abbrev S2x8192x1 : Shape := ⟨3, ![2, 8192, 1]⟩
abbrev S8192x128 : Shape := ⟨2, ![8192, 128]⟩
abbrev S1x8192x1 : Shape := ⟨3, ![1, 8192, 1]⟩
abbrev S8192x1 : Shape := ⟨2, ![8192, 1]⟩
abbrev S8192 : Shape := ⟨1, ![8192]⟩
abbrev S_ : Shape := ⟨0, ![]⟩
abbrev S32x256 : Shape := ⟨2, ![32, 256]⟩
abbrev S32x32 : Shape := ⟨2, ![32, 32]⟩
abbrev S32x2x256 : Shape := ⟨3, ![32, 2, 256]⟩
abbrev S32x1x256 : Shape := ⟨3, ![32, 1, 256]⟩
abbrev S2x32x256 : Shape := ⟨3, ![2, 32, 256]⟩

abbrev nBuf : Space → Nat
  | .hbm => 37
  | .vmem => 13
  | .smem => 0
  | _ => 0

abbrev bufTy : (tb : Table) → Fin (tcTables nBuf tb) → BufTy
  | .hbm, ⟨0, _⟩ => ⟨S32x256x32x32, .f32⟩
  | .hbm, ⟨1, _⟩ => ⟨S32x256x32x32, .f32⟩
  | .hbm, ⟨2, _⟩ => ⟨S256x32, .f32⟩
  | .hbm, ⟨3, _⟩ => ⟨S32x512, .f32⟩
  | .hbm, ⟨4, _⟩ => ⟨S8192x1024, .f32⟩
  | .hbm, ⟨5, _⟩ => ⟨S8192x1024, .f32⟩
  | .hbm, ⟨6, _⟩ => ⟨S2x8192x1, .f32⟩
  | .hbm, ⟨7, _⟩ => ⟨S_, .f32⟩
  | .hbm, ⟨8, _⟩ => ⟨S8192x1, .f32⟩
  | .hbm, ⟨9, _⟩ => ⟨S32x256, .f32⟩
  | .hbm, ⟨10, _⟩ => ⟨S_, .f32⟩
  | .hbm, ⟨11, _⟩ => ⟨S32x256, .f32⟩
  | .hbm, ⟨12, _⟩ => ⟨S32x256, .f32⟩
  | .hbm, ⟨13, _⟩ => ⟨S32x32, .f32⟩
  | .hbm, ⟨14, _⟩ => ⟨S_, .f32⟩
  | .hbm, ⟨15, _⟩ => ⟨S32x32, .f32⟩
  | .hbm, ⟨16, _⟩ => ⟨S32x32, .f32⟩
  | .hbm, ⟨17, _⟩ => ⟨S32x512, .f32⟩
  | .hbm, ⟨18, _⟩ => ⟨S32x2x256, .f32⟩
  | .hbm, ⟨19, _⟩ => ⟨S_, .f32⟩
  | .hbm, ⟨20, _⟩ => ⟨S32x256, .f32⟩
  | .hbm, ⟨21, _⟩ => ⟨S_, .f32⟩
  | .hbm, ⟨22, _⟩ => ⟨S32x256, .f32⟩
  | .hbm, ⟨23, _⟩ => ⟨S32x256, .f32⟩
  | .hbm, ⟨24, _⟩ => ⟨S32x1x256, .f32⟩
  | .hbm, ⟨25, _⟩ => ⟨S32x2x256, .f32⟩
  | .hbm, ⟨26, _⟩ => ⟨S32x2x256, .f32⟩
  | .hbm, ⟨27, _⟩ => ⟨S32x2x256, .f32⟩
  | .hbm, ⟨28, _⟩ => ⟨S_, .f32⟩
  | .hbm, ⟨29, _⟩ => ⟨S32x256, .f32⟩
  | .hbm, ⟨30, _⟩ => ⟨S32x1x256, .f32⟩
  | .hbm, ⟨31, _⟩ => ⟨S32x2x256, .f32⟩
  | .hbm, ⟨32, _⟩ => ⟨S32x2x256, .f32⟩
  | .hbm, ⟨33, _⟩ => ⟨S2x32x256, .f32⟩
  | .hbm, ⟨34, _⟩ => ⟨S2x8192x1, .f32⟩
  | .hbm, ⟨35, _⟩ => ⟨S8192x1024, .f32⟩
  | .hbm, ⟨36, _⟩ => ⟨S32x256x32x32, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x8192x1, .f32⟩
  | .local _ .vmem, ⟨5, _⟩ => ⟨S1x8192x1, .f32⟩
  | .local _ .vmem, ⟨6, _⟩ => ⟨S2x8192x1, .f32⟩
  | .local _ .vmem, ⟨7, _⟩ => ⟨S8192x128, .f32⟩
  | .local _ .vmem, ⟨8, _⟩ => ⟨S8192x128, .f32⟩
  | .local _ .vmem, ⟨9, _⟩ => ⟨S8192x128, .f32⟩
  | .local _ .vmem, ⟨10, _⟩ => ⟨S8192x128, .f32⟩
  | .local _ .vmem, ⟨11, _⟩ => ⟨S8192x128, .f32⟩
  | .local _ .vmem, ⟨12, _⟩ => ⟨S8192x128, .f32⟩
  | _, _ => ⟨S32x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S2x8192x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8192x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S32x256x32x32_S8192x1024 : S32x256x32x32.ShapeCasts S8192x1024
  inb_S1x8192x1_S1x8192x1_0_0_0 : ∀ a, (![0, 0, 0] : Fin 3 → Nat) a + S1x8192x1.size a ≤ S1x8192x1.size a
  h_S1x8192x1 : 0 < S1x8192x1.numel
  shapeCasts_S1x8192x1_S8192x1 : S1x8192x1.ShapeCasts S8192x1
  shapeCasts_S8192x1_S1x8192x1 : S8192x1.ShapeCasts S1x8192x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  shapeCasts_S8192_S8192x1 : S8192.ShapeCasts S8192x1
  reducesTo_S2x8192x1_S8192x1_d0 : S2x8192x1.ReducesTo [0] S8192x1
  h_S_ : 0 < S_.numel
  shapeCasts_S8192x1_S32x256 : S8192x1.ShapeCasts S32x256
  bcast_S_S32x256 : S_.BroadcastsInDim S32x256 (![] : Fin 0 → Fin S32x256.rank)
  bcast_S_S32x32 : S_.BroadcastsInDim S32x32 (![] : Fin 0 → Fin S32x32.rank)
  shapeCasts_S32x512_S32x2x256 : S32x512.ShapeCasts S32x2x256
  reducesTo_S32x2x256_S32x256_d1 : S32x2x256.ReducesTo [1] S32x256
  bcast_S32x256_S32x1x256_0_2 : S32x256.BroadcastsInDim S32x1x256 (![0, 2] : Fin 2 → Fin S32x1x256.rank)
  bcast_S32x1x256_S32x2x256_0_1_2 : S32x1x256.BroadcastsInDim S32x2x256 (![0, 1, 2] : Fin 3 → Fin S32x2x256.rank)
  transposes_S32x2x256_S2x32x256_1_0_2 : S32x2x256.Transposes [1, 0, 2] S2x32x256
  shapeCasts_S2x32x256_S2x8192x1 : S2x32x256.ShapeCasts S2x8192x1
  inb_S2x8192x1_S1x8192x1_0_0_0 : ∀ a, (![0, 0, 0] : Fin 3 → Nat) a + S1x8192x1.size a ≤ S2x8192x1.size a
  broadcasts_S8192x1_S8192x128 : S8192x1.Broadcasts S8192x128
  inb_S2x8192x1_S1x8192x1_1_0_0 : ∀ a, (![1, 0, 0] : Fin 3 → Nat) a + S1x8192x1.size a ≤ S2x8192x1.size a
  shapeCasts_S8192x1024_S32x256x32x32 : S8192x1024.ShapeCasts S32x256x32x32
  dot_S32x256_S256x32_S32x32_1_0_0_1_n_n_wf : DotDims.WF S32x256 S256x32 S32x32 [1] [0] [0] [1] [] []
  dot_S32x32_S32x512_S32x512_1_0_0_1_n_n_wf : DotDims.WF S32x32 S32x512 S32x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x1024.size a
  hwx0_0 : ∀ i : grid0.Coords, EltTy.bits .f32 = 32 ∨ (Rect.block (s := S8192x1024) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x1024.size a
  hwx0_1 : ∀ i : grid0.Coords, EltTy.bits .f32 = 32 ∨ (Rect.block (s := S8192x1024) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192x1.size a ≤ S2x8192x1.size a
  hwx0_2 : ∀ i : grid0.Coords, EltTy.bits .f32 = 32 ∨ (Rect.block (s := S2x8192x1) S1x8192x1.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2x8192x1.size a ≤ S2x8192x1.size a
  hwx1_0 : ∀ i : grid1.Coords, EltTy.bits .f32 = 32 ∨ (Rect.block (s := S2x8192x1) S2x8192x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x1024.size a
  hwx1_1 : ∀ i : grid1.Coords, EltTy.bits .f32 = 32 ∨ (Rect.block (s := S8192x1024) S8192x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S8192x1024.size a
  hwx1_2 : ∀ i : grid1.Coords, EltTy.bits .f32 = 32 ∨ (Rect.block (s := S8192x1024) S8192x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x128.size a ≤ S8192x1024.size a
  hwx1_3 : ∀ i : grid1.Coords, EltTy.bits .f32 = 32 ∨ (Rect.block (s := S8192x1024) S8192x128.size (cc1_transform_3 i) (hinb1_3 i)).WholeWords (EltTy.packing .f32)

variable [Facts₀]

def dot_S32x256_S256x32_S32x32_1_0_0_1_n_n : DotDims S32x256 S256x32 S32x32 where
  lhsContracting := [1]
  rhsContracting := [0]
  lhsNonContracting := [0]
  rhsNonContracting := [1]
  lhsBatch := []
  rhsBatch := []
  wf := dot_S32x256_S256x32_S32x32_1_0_0_1_n_n_wf
def dot_S32x32_S32x512_S32x512_1_0_0_1_n_n : DotDims S32x32 S32x512 S32x512 where
  lhsContracting := [1]
  rhsContracting := [0]
  lhsNonContracting := [0]
  rhsNonContracting := [1]
  lhsBatch := []
  rhsBatch := []
  wf := dot_S32x32_S32x512_S32x512_1_0_0_1_n_n_wf

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8192x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v24) S2x8192x1.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8192x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S8192x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S8192x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.Spec.lean ====
/-
  Selective-kernel fusion of two feature maps, as two closed forms on the extended reals.

  Both programs average the sum of the two maps over the 32×32 pixels of each (batch, channel), push the
  pooled vector through a two-layer perceptron (256 → 32 with a maximum against zero, 32 → 512), and
  mix the maps with per-(batch, channel) weights from the two halves of the 512 logits.
  The kernel's form mixes with the logistic function of the logit difference, x₁ + σ(l₀ − l₁)·(x₀ − x₁);
  the reference's form with the two-way softmax, x₀·e^(l₀−M)/(e^(l₀−M)+e^(l₁−M)) + x₁·e^(l₁−M)/(…), M = max l₀ l₁,
  and it pools by summing 2·4 column tiles of 128 pixels of the flattened [8192, 1024] maps.
  Every function here is stated over explicit coordinates (Fin 32, Fin 256, …) and the arrays
  are read at indices built by ix2 / ix3 / ix4.
-/
import Idealize.ShloMosaic.PureOps.Ideal
import Idealize.ShloMosaic.Lib.ValueIdx

noncomputable section

namespace Cert.Spec

open Idealize.ShloMosaic Idealize.ShloMosaic.ValueIdx

/-- The feature maps [batch, channel, height, width]. -/
abbrev SFeat : Shape := ⟨4, ![32, 256, 32, 32]⟩
/-- The first weight matrix [channel, hidden]. -/
abbrev SW1 : Shape := ⟨2, ![256, 32]⟩
/-- The second weight matrix [hidden, 2·channel]. -/
abbrev SW2 : Shape := ⟨2, ![32, 512]⟩
/-- A feature map flattened to [batch·channel, pixel]. -/
abbrev SFlat : Shape := ⟨2, ![8192, 1024]⟩
/-- Two columns over the 8192 rows: [2, batch·channel, 1]. -/
abbrev SPart : Shape := ⟨3, ![2, 8192, 1]⟩

/-- The scale 2⁻¹⁰ = 1/(32·32), as the word both programs carry. -/
def sc : EReal := Ideal.ofBits .f32 0x3A800000#32

/-- Pixel k of the 32×32 map is at row k / 32, -/
def pixH (k : Fin 1024) : Fin 32 := ⟨k.val / 32, by have := k.isLt; omega⟩
/-- column k % 32. -/
def pixW (k : Fin 1024) : Fin 32 := ⟨k.val % 32, by omega⟩
/-- Row r of the flattened maps is batch r / 256, -/
def rowB (r : Fin 8192) : Fin 32 := ⟨r.val / 256, by have := r.isLt; omega⟩
/-- channel r % 256. -/
def rowC (r : Fin 8192) : Fin 256 := ⟨r.val % 256, by omega⟩
/-- (batch, channel) is row batch·256 + channel. -/
def row (b : Fin 32) (c : Fin 256) : Fin 8192 := ⟨b.val * 256 + c.val, by have := b.isLt; have := c.isLt; omega⟩
/-- (height, width) is pixel height·32 + width. -/
def pix (h w : Fin 32) : Fin 1024 := ⟨h.val * 32 + w.val, by have := h.isLt; have := w.isLt; omega⟩
/-- Branch k's logit of channel c is column k·256 + c of the 512. -/
def col (k : Fin 2) (c : Fin 256) : Fin 512 := ⟨k.val * 256 + c.val, by have := k.isLt; have := c.isLt; omega⟩
/-- Lane l of tile t of half s is pixel (4·s + t)·128 + l. -/
def tileCol (s : Fin 2) (t : Fin 4) (l : Fin 128) : Fin 1024 :=
  ⟨(4 * s.val + t.val) * 128 + l.val, by have := s.isLt; have := t.isLt; have := l.isLt; omega⟩

/-! ## The perceptron, from any pooled vector -/

/-- The hidden layer: max (P · W1) 0. -/
def hid (P : Fin 32 → Fin 256 → EReal) (W1 : SW1.Idx → EReal) (b : Fin 32) (j : Fin 32) : EReal :=
  max (∑ c : Fin 256, P b c * W1 (ix2 c j)) 0

/-- The 512 logits: hid · W2. -/
def logit (P : Fin 32 → Fin 256 → EReal) (W1 : SW1.Idx → EReal) (W2 : SW2.Idx → EReal) (b : Fin 32) (n : Fin 512) : EReal :=
  ∑ j : Fin 32, hid P W1 b j * W2 (ix2 j n)

/-! ## The kernel's form -/

/-- The pooled vector as the kernel takes it: the two maps' pixel sums, added, scaled. -/
def kpool (X0 X1 : SFeat.Idx → EReal) (b : Fin 32) (c : Fin 256) : EReal :=
  (∑ k : Fin 1024, X0 (ix4 b c (pixH k) (pixW k)) + ∑ k : Fin 1024, X1 (ix4 b c (pixH k) (pixW k))) * sc

/-- The kernel's result at (b, c, h, w): x₁ + σ(l₀ − l₁)·(x₀ − x₁). -/
def skf (X0 X1 : SFeat.Idx → EReal) (W1 : SW1.Idx → EReal) (W2 : SW2.Idx → EReal) (b : Fin 32) (c : Fin 256) (h w : Fin 32) : EReal :=
  X1 (ix4 b c h w)
    + Ideal.logistic (logit (kpool X0 X1) W1 W2 b (col 0 c) - logit (kpool X0 X1) W1 W2 b (col 1 c))
      * (X0 (ix4 b c h w) - X1 (ix4 b c h w))

/-- The kernel's result array. -/
def SKF (X0 X1 : SFeat.Idx → EReal) (W1 : SW1.Idx → EReal) (W2 : SW2.Idx → EReal) : SFeat.Idx → EReal :=
  fun i => skf X0 X1 W1 W2 (i 0) (i 1) (i 2) (i 3)

/-! ## The reference's form, stage by stage -/

/-- A feature map flattened to [batch·channel, pixel]. -/
def flat (X : SFeat.Idx → EReal) : SFlat.Idx → EReal :=
  fun i => X (ix4 (rowB (i 0)) (rowC (i 0)) (pixH (i 1)) (pixW (i 1)))

/-- Half s of row r's sum of both flattened maps: four tiles of 128 lanes. -/
def partialc (A0 A1 : SFlat.Idx → EReal) (s : Fin 2) (r : Fin 8192) : EReal :=
  ∑ t : Fin 4, ∑ l : Fin 128, (A0 (ix2 r (tileCol s t l)) + A1 (ix2 r (tileCol s t l)))

/-- The two half sums as a [2, 8192, 1] array. -/
def partialSum (A0 A1 : SFlat.Idx → EReal) : SPart.Idx → EReal :=
  fun i => partialc A0 A1 (i 0) (i 1)

/-- The pooled vector as the reference takes it: the two halves added, scaled. -/
def rpool (P : SPart.Idx → EReal) (b : Fin 32) (c : Fin 256) : EReal :=
  (∑ s : Fin 2, P (ix3 s (row b c) (0 : Fin 1))) * sc

/-- Branch k's softmax weight over the two branches of (b, c), shifted by the larger logit. -/
def attnc (L : Fin 32 → Fin 512 → EReal) (k : Fin 2) (b : Fin 32) (c : Fin 256) : EReal :=
  Ideal.div (Ideal.exp (L b (col k c) - max (L b (col 0 c)) (L b (col 1 c))))
    (Ideal.exp (L b (col 0 c) - max (L b (col 0 c)) (L b (col 1 c)))
      + Ideal.exp (L b (col 1 c) - max (L b (col 0 c)) (L b (col 1 c))))

/-- The weights as the [2, 8192, 1] array the second pass reads. -/
def attn (L : Fin 32 → Fin 512 → EReal) : SPart.Idx → EReal :=
  fun i => attnc L (i 0) (rowB (i 1)) (rowC (i 1))

/-- The second pass: each flattened map times its branch's weight of the row, added. -/
def wsum (AT : SPart.Idx → EReal) (A0 A1 : SFlat.Idx → EReal) : SFlat.Idx → EReal :=
  fun i => A0 i * AT (ix3 (0 : Fin 2) (i 0) (0 : Fin 1)) + A1 i * AT (ix3 (1 : Fin 2) (i 0) (0 : Fin 1))

/-- The logits as the reference computes them. -/
def rlogit (X0 X1 : SFeat.Idx → EReal) (W1 : SW1.Idx → EReal) (W2 : SW2.Idx → EReal) : Fin 32 → Fin 512 → EReal :=
  logit (rpool (partialSum (flat X0) (flat X1))) W1 W2

/-- The reference's result at (b, c, h, w): x₀·a₀ + x₁·a₁. -/
def refc (X0 X1 : SFeat.Idx → EReal) (W1 : SW1.Idx → EReal) (W2 : SW2.Idx → EReal) (b : Fin 32) (c : Fin 256) (h w : Fin 32) : EReal :=
  X0 (ix4 b c h w) * attnc (rlogit X0 X1 W1 W2) 0 b c + X1 (ix4 b c h w) * attnc (rlogit X0 X1 W1 W2) 1 b c

/-- The reference's result array. -/
def REF (X0 X1 : SFeat.Idx → EReal) (W1 : SW1.Idx → EReal) (W2 : SW2.Idx → EReal) : SFeat.Idx → EReal :=
  fun i => refc X0 X1 W1 W2 (i 0) (i 1) (i 2) (i 3)

end Cert.Spec

end
-- ==== Proof.KernelPayload.lean ====
/- The kernel body's stored value, read at one index of the output block: the second map plus the logistic gate of the
   two logits' difference times the maps' difference, the logits from the block's own pooled rows. -/
import proofs.«169458_g2000706281692390_pallasbulk_37_19_alg».proof.Proof.Gen.KernelIdeal.Skeleton
import proofs.«169458_g2000706281692390_pallasbulk_37_19_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelPayload

open Idealize.ShloMosaic Idealize.ShloMosaic.ValueIdx
open Cert.KernelIdeal Cert.KernelIdeal.Gen

/-! ## The closed form over arrays laid out [batch, pixel, channel] -/

/-- The pooled value of (batch b, channel c): both maps summed over the 1024 pixels, added, scaled by 2⁻¹⁰. -/
def pool {n : Nat} (Y0 Y1 : (⟨3, ![n, 1024, 256]⟩ : Shape).Idx → EReal) (b : Fin n) (c : Fin 256) : EReal :=
  (∑ k : Fin 1024, Y0 (ix3 b k c) + ∑ k : Fin 1024, Y1 (ix3 b k c)) * Cert.Spec.sc

/-- The hidden layer of one pooled row. -/
def hidRow (pr : Fin 256 → EReal) (W1 : Cert.Spec.SW1.Idx → EReal) (j : Fin 32) : EReal :=
  max (∑ c : Fin 256, pr c * W1 (ix2 c j)) 0

/-- The 512 logits of one pooled row. -/
def logitRow (pr : Fin 256 → EReal) (W1 : Cert.Spec.SW1.Idx → EReal) (W2 : Cert.Spec.SW2.Idx → EReal) (n : Fin 512) : EReal :=
  ∑ j : Fin 32, hidRow pr W1 j * W2 (ix2 j n)

/-- The mixed value at (batch b, pixel k, channel c): y₁ + σ(l₀ − l₁)·(y₀ − y₁). -/
def mix {n : Nat} (W1 : Cert.Spec.SW1.Idx → EReal) (W2 : Cert.Spec.SW2.Idx → EReal)
    (Y0 Y1 : (⟨3, ![n, 1024, 256]⟩ : Shape).Idx → EReal) (b : Fin n) (k : Fin 1024) (c : Fin 256) : EReal :=
  Y1 (ix3 b k c)
    + Ideal.logistic (logitRow (pool Y0 Y1 b) W1 W2 (Cert.Spec.col 0 c) - logitRow (pool Y0 Y1 b) W1 W2 (Cert.Spec.col 1 c))
      * (Y0 (ix3 b k c) - Y1 (ix3 b k c))

/-- The whole [32, 1024, 256] array the region leaves. -/
def KB (W1 : Cert.Spec.SW1.Idx → EReal) (W2 : Cert.Spec.SW2.Idx → EReal) (Y0 Y1 : S32x1024x256.Idx → EReal) :
    S32x1024x256.Idx → EReal :=
  fun i => mix W1 W2 Y0 Y1 (i 0) (i 1) (i 2)

/-! ## The body's operations, each read at an index -/

/-- A lane sum over the pixel axis. -/
theorem laneSum_apply (x : FVec Ideal S4x1024x256 .f32) (p : Fin 4) (c : Fin 256) :
    multiReduction (F := Ideal) .add [1] S4x256 x 0x00000000#32 reduces_S4x1024x256_S4x256 (.inl rfl) rfl (ix2 p c)
      = ∑ k : Fin 1024, x (ix3 p k c) := by
  refine (Ideal.multiReduction_add_single x _ _ _ _ (ix2 p c)).trans ?_
  exact Finset.sum_congr rfl fun k _ => congrArg x (funext fun a => Fin.ext (by
    match a with | ⟨0, _⟩ => rfl | ⟨1, _⟩ => rfl | ⟨2, _⟩ => rfl))

/-- The first matmul's left index keeps the row … -/
theorem mm1_lhs0 (i : S4x32.Idx) (q : dot_S4x256_S256x32_S4x32_1_0_0_1_n_n.contr.Idx) :
    (dot_S4x256_S256x32_S4x32_1_0_0_1_n_n.lhsIdx i q 0).val = (i 0).val := by
  unfold DotDims.lhsIdx
  rw [dif_neg (show ¬(0 : Fin S4x256.rank) ∈ dot_S4x256_S256x32_S4x32_1_0_0_1_n_n.lhsBatch by decide),
    dif_pos (show (0 : Fin S4x256.rank) ∈ dot_S4x256_S256x32_S4x32_1_0_0_1_n_n.lhsNonContracting by decide)]
  rfl
/-- … and runs along the contraction; -/
theorem mm1_lhs1 (i : S4x32.Idx) (q : dot_S4x256_S256x32_S4x32_1_0_0_1_n_n.contr.Idx) :
    (dot_S4x256_S256x32_S4x32_1_0_0_1_n_n.lhsIdx i q 1).val = (q ⟨0, by decide⟩).val :=
  dot_S4x256_S256x32_S4x32_1_0_0_1_n_n.lhsIdx_val_of_single rfl i q
/-- its right index runs along the contraction … -/
theorem mm1_rhs0 (i : S4x32.Idx) (q : dot_S4x256_S256x32_S4x32_1_0_0_1_n_n.contr.Idx) :
    (dot_S4x256_S256x32_S4x32_1_0_0_1_n_n.rhsIdx i q 0).val = (q ⟨0, by decide⟩).val :=
  dot_S4x256_S256x32_S4x32_1_0_0_1_n_n.rhsIdx_val_of_single rfl i q
/-- … and keeps the column. -/
theorem mm1_rhs1 (i : S4x32.Idx) (q : dot_S4x256_S256x32_S4x32_1_0_0_1_n_n.contr.Idx) :
    (dot_S4x256_S256x32_S4x32_1_0_0_1_n_n.rhsIdx i q 1).val = (i 1).val := by
  unfold DotDims.rhsIdx
  rw [dif_neg (show ¬(1 : Fin S256x32.rank) ∈ dot_S4x256_S256x32_S4x32_1_0_0_1_n_n.rhsBatch by decide),
    dif_pos (show (1 : Fin S256x32.rank) ∈ dot_S4x256_S256x32_S4x32_1_0_0_1_n_n.rhsNonContracting by decide)]
  rfl

/-- The first matmul into the zero accumulator: row p of the left times column j of the right. -/
theorem mm1_apply (l : FVec Ideal S4x256 .f32) (r : FVec Ideal S256x32 .f32) (p : Fin 4) (j : Fin 32) :
    matmul (F := Ideal) dot_S4x256_S256x32_S4x32_1_0_0_1_n_n none l r (constant S4x32 .f32 0x00000000#32) (ix2 p j)
      = ∑ c : Fin 256, l (ix2 p c) * r (ix2 c j) := by
  simp only [matmul]
  rw [Ideal.matmul_constant_zero_apply, ← Equiv.sum_comp (contrEquiv1 dot_S4x256_S256x32_S4x32_1_0_0_1_n_n 256 rfl rfl).symm]
  refine Finset.sum_congr rfl fun k _ => ?_
  have hk := contrEquiv1_symm_val dot_S4x256_S256x32_S4x32_1_0_0_1_n_n 256 rfl rfl k
  have el : dot_S4x256_S256x32_S4x32_1_0_0_1_n_n.lhsIdx (ix2 p j) ((contrEquiv1 dot_S4x256_S256x32_S4x32_1_0_0_1_n_n 256 rfl rfl).symm k) = ix2 p k :=
    funext fun a => Fin.ext (by
      match a with
      | ⟨0, _⟩ => exact mm1_lhs0 _ _
      | ⟨1, _⟩ => exact (mm1_lhs1 _ _).trans hk)
  have er : dot_S4x256_S256x32_S4x32_1_0_0_1_n_n.rhsIdx (ix2 p j) ((contrEquiv1 dot_S4x256_S256x32_S4x32_1_0_0_1_n_n 256 rfl rfl).symm k) = ix2 k j :=
    funext fun a => Fin.ext (by
      match a with
      | ⟨0, _⟩ => exact (mm1_rhs0 _ _).trans hk
      | ⟨1, _⟩ => exact mm1_rhs1 _ _)
  rw [el, er]

/-- The second matmul's left index keeps the row … -/
theorem mm2_lhs0 (i : S4x512.Idx) (q : dot_S4x32_S32x512_S4x512_1_0_0_1_n_n.contr.Idx) :
    (dot_S4x32_S32x512_S4x512_1_0_0_1_n_n.lhsIdx i q 0).val = (i 0).val := by
  unfold DotDims.lhsIdx
  rw [dif_neg (show ¬(0 : Fin S4x32.rank) ∈ dot_S4x32_S32x512_S4x512_1_0_0_1_n_n.lhsBatch by decide),
    dif_pos (show (0 : Fin S4x32.rank) ∈ dot_S4x32_S32x512_S4x512_1_0_0_1_n_n.lhsNonContracting by decide)]
  rfl
/-- … and runs along the contraction; -/
theorem mm2_lhs1 (i : S4x512.Idx) (q : dot_S4x32_S32x512_S4x512_1_0_0_1_n_n.contr.Idx) :
    (dot_S4x32_S32x512_S4x512_1_0_0_1_n_n.lhsIdx i q 1).val = (q ⟨0, by decide⟩).val :=
  dot_S4x32_S32x512_S4x512_1_0_0_1_n_n.lhsIdx_val_of_single rfl i q
/-- its right index runs along the contraction … -/
theorem mm2_rhs0 (i : S4x512.Idx) (q : dot_S4x32_S32x512_S4x512_1_0_0_1_n_n.contr.Idx) :
    (dot_S4x32_S32x512_S4x512_1_0_0_1_n_n.rhsIdx i q 0).val = (q ⟨0, by decide⟩).val :=
  dot_S4x32_S32x512_S4x512_1_0_0_1_n_n.rhsIdx_val_of_single rfl i q
/-- … and keeps the column. -/
theorem mm2_rhs1 (i : S4x512.Idx) (q : dot_S4x32_S32x512_S4x512_1_0_0_1_n_n.contr.Idx) :
    (dot_S4x32_S32x512_S4x512_1_0_0_1_n_n.rhsIdx i q 1).val = (i 1).val := by
  unfold DotDims.rhsIdx
  rw [dif_neg (show ¬(1 : Fin S32x512.rank) ∈ dot_S4x32_S32x512_S4x512_1_0_0_1_n_n.rhsBatch by decide),
    dif_pos (show (1 : Fin S32x512.rank) ∈ dot_S4x32_S32x512_S4x512_1_0_0_1_n_n.rhsNonContracting by decide)]
  rfl

/-- The second matmul into the zero accumulator: row p of the left times column n of the right. -/
theorem mm2_apply (l : FVec Ideal S4x32 .f32) (r : FVec Ideal S32x512 .f32) (p : Fin 4) (n : Fin 512) :
    matmul (F := Ideal) dot_S4x32_S32x512_S4x512_1_0_0_1_n_n none l r (constant S4x512 .f32 0x00000000#32) (ix2 p n)
      = ∑ j : Fin 32, l (ix2 p j) * r (ix2 j n) := by
  simp only [matmul]
  rw [Ideal.matmul_constant_zero_apply, ← Equiv.sum_comp (contrEquiv1 dot_S4x32_S32x512_S4x512_1_0_0_1_n_n 32 rfl rfl).symm]
  refine Finset.sum_congr rfl fun k _ => ?_
  have hk := contrEquiv1_symm_val dot_S4x32_S32x512_S4x512_1_0_0_1_n_n 32 rfl rfl k
  have el : dot_S4x32_S32x512_S4x512_1_0_0_1_n_n.lhsIdx (ix2 p n) ((contrEquiv1 dot_S4x32_S32x512_S4x512_1_0_0_1_n_n 32 rfl rfl).symm k) = ix2 p k :=
    funext fun a => Fin.ext (by
      match a with
      | ⟨0, _⟩ => exact mm2_lhs0 _ _
      | ⟨1, _⟩ => exact (mm2_lhs1 _ _).trans hk)
  have er : dot_S4x32_S32x512_S4x512_1_0_0_1_n_n.rhsIdx (ix2 p n) ((contrEquiv1 dot_S4x32_S32x512_S4x512_1_0_0_1_n_n 32 rfl rfl).symm k) = ix2 k n :=
    funext fun a => Fin.ext (by
      match a with
      | ⟨0, _⟩ => exact (mm2_rhs0 _ _).trans hk
      | ⟨1, _⟩ => exact mm2_rhs1 _ _)
  rw [el, er]

/-- The first 256 columns of the logits are branch 0's … -/
theorem slice0_apply (M : FVec Ideal S4x512 .f32) (p : Fin 4) (c : Fin 256) :
    extractStridedSlice S4x256 ![0, 0] M slices_S4x512_o0_0_S4x256 (ix2 p c) = M (ix2 p (Cert.Spec.col 0 c)) :=
  slice2_axis1_apply 0 M _ p c (Cert.Spec.col 0 c) (by show (0 : Fin 2).val * 256 + c.val = 0 + c.val; simp)
/-- … and the last 256 branch 1's. -/
theorem slice1_apply (M : FVec Ideal S4x512 .f32) (p : Fin 4) (c : Fin 256) :
    extractStridedSlice S4x256 ![0, 256] M slices_S4x512_o0_256_S4x256 (ix2 p c) = M (ix2 p (Cert.Spec.col 1 c)) :=
  slice2_axis1_apply 256 M _ p c (Cert.Spec.col 1 c) (by show (1 : Fin 2).val * 256 + c.val = 256 + c.val; simp)

/-- A [4, 256] gate seen as [4, 1, 256] and repeated over the 1024 pixels reads its (row, channel). -/
theorem gate_apply (g : FVec Ideal S4x256 .f32) (p : Fin 4) (k : Fin 1024) (c : Fin 256) :
    broadcastTo S4x1024x256 (shapeCast S4x1x256 g shapeCasts_S4x256_S4x1x256) broadcasts_S4x1x256_S4x1024x256 (ix3 p k c)
      = g (ix2 p c) := by
  refine (broadcastTo_apply _ _ (ix3 p k c) (ix3 p (0 : Fin 1) c) (fun a => ?_)).trans ?_
  · match a with
    | ⟨0, _⟩ => rfl
    | ⟨1, _⟩ => rfl
    | ⟨2, _⟩ => rfl
  · refine shapeCast_apply g _ (ix3 p (0 : Fin 1) c) (ix2 p c) ?_
    rw [Shape.rowMajor_val_two, Shape.rowMajor_val_three]
    show p.val * 256 + c.val = (p.val * 1 + 0) * 256 + c.val
    omega

/-- The logistic of a difference, at an index. -/
theorem logistic_subf_apply {s : Shape} {φ : FTy} (a b : FVec Ideal s φ) (i : s.Idx) :
    logistic (subf a b) i = Ideal.logistic (a i - b i) := rfl

/-! ## The stored value at an index -/

/-- THE PAYLOAD AT (row p, pixel k, channel c) of the output block, from the two map blocks and the two weight matrices. -/
theorem pay_apply (x2 x3 : Vec Ideal S4x1024x256 .f32) (x0 : Vec Ideal S256x32 .f32) (x1 : Vec Ideal S32x512 .f32)
    (p : Fin 4) (k : Fin 1024) (c : Fin 256) :
    k0_pay1 (F := Ideal) x2 x3 x0 x1 (ix3 p k c) = mix x0 x1 x2 x3 p k c := by
  unfold k0_pay1
  simp only [shapeCast_self]
  rw [addf_apply, mulf_apply, subf_apply, gate_apply]
  rw [logistic_subf_apply, slice0_apply, slice1_apply, mm2_apply, mm2_apply]
  simp only [maximumf_apply, mm1_apply, mulf_apply, addf_apply, broadcast_apply]
  have e2 : ∀ c' : Fin 256, multiReduction (F := Ideal) .add [1] S4x256 x2 0x00000000#32 reduces_S4x1024x256_S4x256 k0_pay1._proof_2 k0_pay1._proof_3 (ix2 p c')
      = ∑ k : Fin 1024, x2 (ix3 p k c') := fun c' => laneSum_apply x2 p c'
  have e3 : ∀ c' : Fin 256, multiReduction (F := Ideal) .add [1] S4x256 x3 0x00000000#32 reduces_S4x1024x256_S4x256 k0_pay1._proof_2 k0_pay1._proof_3 (ix2 p c')
      = ∑ k : Fin 1024, x3 (ix3 p k c') := fun c' => laneSum_apply x3 p c'
  simp only [e2, e3]
  have z : (FloatOps.ofBits (F := Ideal) .f32 0x00000000#32 : EReal) = 0 := Ideal.ofBits_zero_f32
  rw [z]
  rfl

end Cert.KernelPayload

end
-- ==== Proof.KernelBlocks.lean ====
/- From the output window's blocks to the whole middle array: every grid point writes back the block of the closed form
   under it, and the eight blocks of four batch rows cover the 32 rows. -/
import proofs.«169458_g2000706281692390_pallasbulk_37_19_alg».proof.Proof.Gen.KernelIdeal.Frame
import proofs.«169458_g2000706281692390_pallasbulk_37_19_alg».proof.Proof.KernelPayload
import Idealize.ShloMosaic.Lib.Pipeline.Value

set_option maxRecDepth 16384

noncomputable section

namespace Cert.KernelBlocks

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelPayload

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The payload at any index of the block. -/
theorem pay_at (x2 x3 : Vec Ideal S4x1024x256 .f32) (x0 : Vec Ideal S256x32 .f32) (x1 : Vec Ideal S32x512 .f32)
    (y : S4x1024x256.Idx) : k0_pay1 (F := Ideal) x2 x3 x0 x1 y = mix x0 x1 x2 x3 (y 0) (y 1) (y 2) :=
  (congrArg (k0_pay1 (F := Ideal) x2 x3 x0 x1) (eq_ix3 y)).trans (pay_apply x2 x3 x0 x1 (y 0) (y 1) (y 2))

/-- The mixed value of a block of four batch rows is the whole arrays' at the block's place: the weights are whole,
    and row p of block q is batch row 4q + p. -/
theorem mix_block (W1 : Cert.Spec.SW1.Idx → EReal) (W2 : Cert.Spec.SW2.Idx → EReal)
    (Y0 Y1 : S32x1024x256.Idx → EReal) (x0 : Cert.Spec.SW1.Idx → EReal) (x1 : Cert.Spec.SW2.Idx → EReal)
    (x2 x3 : S4x1024x256.Idx → EReal) (q : Nat) (hq : q ≤ 7) (e0 : x0 = W1) (e1 : x1 = W2)
    (e2 : ∀ (p : Fin 4) (k : Fin 1024) (c : Fin 256), x2 (ix3 p k c) = Y0 (ix3 (⟨q * 4 + p.val, by have := p.isLt; omega⟩ : Fin 32) k c))
    (e3 : ∀ (p : Fin 4) (k : Fin 1024) (c : Fin 256), x3 (ix3 p k c) = Y1 (ix3 (⟨q * 4 + p.val, by have := p.isLt; omega⟩ : Fin 32) k c))
    (p : Fin 4) (k : Fin 1024) (c : Fin 256) (b : Fin 32) (k' : Fin 1024) (c' : Fin 256)
    (hb : b.val = q * 4 + p.val) (hk : k'.val = k.val) (hc : c'.val = c.val) :
    mix x0 x1 x2 x3 p k c = mix W1 W2 Y0 Y1 b k' c' := by
  subst e0 e1
  obtain rfl : k' = k := Fin.ext hk
  obtain rfl : c' = c := Fin.ext hc
  have hbb : (⟨q * 4 + p.val, by have := p.isLt; clear hb; omega⟩ : Fin 32) = b := Fin.ext hb.symm
  subst hbb
  unfold mix KernelPayload.pool
  simp only [e2, e3]

/-- The printed index maps over the grid: the weights' blocks are the whole matrices, the two maps' blocks move with the
    output's along the batch axis and are whole along the others, and the output's batch block index is at most 7. -/
theorem block_index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (1 : Fin 3) = 0 ∧ win0_4.index t (2 : Fin 3) = 0 ∧ win0_4.index t (0 : Fin 3) ≤ 7 :=
  (by decide +kernel : ∀ t : Fin grid0.N, _)

/-- Every batch block is some point's. -/
theorem batch_block_onto : ∀ q : Fin 8, ∃ t : Fin cfg0.N, win0_4.index t (0 : Fin 3) = q.val :=
  (by decide +kernel : ∀ q : Fin 8, ∃ t : Fin grid0.N, win0_4.index t (0 : Fin 3) = q.val)

/-- The first weight matrix's block is the whole matrix. -/
theorem iblk0_eq (c : Dev nD) (t : Fin cfg0.N) :
    (iblk m c 0 t : S256x32.Idx → EReal) = (V m c main_arg2 : S256x32.Idx → EReal) := by
  obtain ⟨e0, e1, -⟩ := block_index_facts t
  funext y
  show V m c main_arg2 (((cfg0.win 0).blk t).view.emb y) = V m c main_arg2 y
  have h : ((cfg0.win 0).blk t).view.emb y = y := by
    funext a; apply Fin.ext
    match a with
    | ⟨0, _⟩ => show win0_0.index t (0 : Fin 2) * 256 + 1 * (y 0).val = (y 0).val; omega
    | ⟨1, _⟩ => show win0_0.index t (1 : Fin 2) * 32 + 1 * (y 1).val = (y 1).val; omega
  rw [h]

/-- The second weight matrix's block is the whole matrix. -/
theorem iblk1_eq (c : Dev nD) (t : Fin cfg0.N) :
    (iblk m c 1 t : S32x512.Idx → EReal) = (V m c main_arg3 : S32x512.Idx → EReal) := by
  obtain ⟨-, -, e0, e1, -⟩ := block_index_facts t
  funext y
  show V m c main_arg3 (((cfg0.win 1).blk t).view.emb y) = V m c main_arg3 y
  have h : ((cfg0.win 1).blk t).view.emb y = y := by
    funext a; apply Fin.ext
    match a with
    | ⟨0, _⟩ => show win0_1.index t (0 : Fin 2) * 32 + 1 * (y 0).val = (y 0).val; omega
    | ⟨1, _⟩ => show win0_1.index t (1 : Fin 2) * 512 + 1 * (y 1).val = (y 1).val; omega
  rw [h]

/-- Row p of the first map's block at point t is batch row 4·(block index) + p of the re-laid map. -/
theorem iblk2_apply (c : Dev nD) (t : Fin cfg0.N) (p : Fin 4) (k : Fin 1024) (cc : Fin 256) (b : Fin 32)
    (hb : b.val = win0_4.index t (0 : Fin 3) * 4 + p.val) :
    (iblk m c 2 t : S4x1024x256.Idx → EReal) (ix3 p k cc) = (V m c main_v1 : S32x1024x256.Idx → EReal) (ix3 b k cc) := by
  obtain ⟨-, -, -, -, e0, e1, e2, -⟩ := block_index_facts t
  show V m c main_v1 (((cfg0.win 2).blk t).view.emb (ix3 p k cc)) = V m c main_v1 (ix3 b k cc)
  have h : ((cfg0.win 2).blk t).view.emb (ix3 p k cc) = ix3 b k cc := by
    funext a; apply Fin.ext
    match a with
    | ⟨0, _⟩ => show win0_2.index t (0 : Fin 3) * 4 + 1 * p.val = b.val; omega
    | ⟨1, _⟩ => show win0_2.index t (1 : Fin 3) * 1024 + 1 * k.val = k.val; omega
    | ⟨2, _⟩ => show win0_2.index t (2 : Fin 3) * 256 + 1 * cc.val = cc.val; omega
  rw [h]

/-- The same for the second map. -/
theorem iblk3_apply (c : Dev nD) (t : Fin cfg0.N) (p : Fin 4) (k : Fin 1024) (cc : Fin 256) (b : Fin 32)
    (hb : b.val = win0_4.index t (0 : Fin 3) * 4 + p.val) :
    (iblk m c 3 t : S4x1024x256.Idx → EReal) (ix3 p k cc) = (V m c main_v3 : S32x1024x256.Idx → EReal) (ix3 b k cc) := by
  obtain ⟨-, -, -, -, -, -, -, e0, e1, e2, -⟩ := block_index_facts t
  show V m c main_v3 (((cfg0.win 3).blk t).view.emb (ix3 p k cc)) = V m c main_v3 (ix3 b k cc)
  have h : ((cfg0.win 3).blk t).view.emb (ix3 p k cc) = ix3 b k cc := by
    funext a; apply Fin.ext
    match a with
    | ⟨0, _⟩ => show win0_3.index t (0 : Fin 3) * 4 + 1 * p.val = b.val; omega
    | ⟨1, _⟩ => show win0_3.index t (1 : Fin 3) * 1024 + 1 * k.val = k.val; omega
    | ⟨2, _⟩ => show win0_3.index t (2 : Fin 3) * 256 + 1 * cc.val = cc.val; omega
  rw [h]

/-- The middle array the region leaves, from the arrays it finds. -/
abbrev mid (c : Dev nD) : S32x1024x256.Idx → EReal :=
  KB (V m c main_arg2) (V m c main_arg3) (V m c main_v1) (V m c main_v3)

/-- WHAT POINT t WRITES BACK is the block under it of the closed form. -/
theorem written_back_eq (c : Dev nD) (t : Fin cfg0.N) :
    (dats m 0 c).flushed 4 t = ((cfg0.win 4).blk t).view.read (Elt Ideal) (mid m c) := by
  show (cfg0.win 4).cut (grid0.coords t) ((dats m 0 c).after 4 t) = _
  rw [after0_4]
  unfold out0_4
  rw [View.canon_unit_zero hz3]
  simp only [View.ld_unit_zero (S := S4x1024x256) hz3, View.ld_unit_zero (S := S256x32) hz2, View.ld_unit_zero (S := S32x512) hz2]
  obtain ⟨-, -, -, -, -, -, -, -, -, -, e1, e2, e7⟩ := block_index_facts t
  funext j
  have hj0 : (j 0).val < 4 := (j 0).isLt
  have hj1 : (j 1).val < 1024 := (j 1).isLt
  have hj2 : (j 2).val < 256 := (j 2).isLt
  show k0_pay1 (F := Ideal) (iblk m c 2 t) (iblk m c 3 t) (iblk m c 0 t) (iblk m c 1 t) ((cfg0.win 4).xinj (grid0.coords t) j)
      = mid m c (((cfg0.win 4).blk t).view.emb j)
  refine (pay_at _ _ _ _ _).trans ?_
  refine mix_block (V m c main_arg2) (V m c main_arg3) (V m c main_v1) (V m c main_v3) _ _ _ _ (win0_4.index t (0 : Fin 3)) e7
    (iblk0_eq m c t) (iblk1_eq m c t)
    (fun p k cc => iblk2_apply m c t p k cc _ rfl) (fun p k cc => iblk3_apply m c t p k cc _ rfl) _ _ _ _ _ _ ?_ ?_ ?_
  · show win0_4.index t (0 : Fin 3) * 4 + 1 * (j 0).val = win0_4.index t (0 : Fin 3) * 4 + (j 0).val; omega
  · show win0_4.index t (1 : Fin 3) * 1024 + 1 * (j 1).val = (j 1).val; omega
  · show win0_4.index t (2 : Fin 3) * 256 + 1 * (j 2).val = (j 2).val; omega

/-- An index of the array is in point t's block iff each coordinate is in the block's range on its axis. -/
theorem mem_block_iff (t : Fin cfg0.N) (i : S32x1024x256.Idx) :
    i ∈ ((cfg0.win 4).blk t).view.set ↔ ∀ a : Fin 3, win0_4.index t a * S4x1024x256.size a ≤ (i a).val
      ∧ (i a).val < win0_4.index t a * S4x1024x256.size a + S4x1024x256.size a := by
  show i ∈ ((View.whole main_v4).slice (win0_4.rect t)).set ↔ _
  rw [View.set_slice_whole, Rect.mem_set_unit]
  exact Iff.rfl

/-- Batch row b is in the block of the point whose batch block index is b / 4: the blocks cover the array. -/
theorem blocks_cover (i : S32x1024x256.Idx) :
    ∃ t : Fin cfg0.N, (cfg0.win 4).flush t = true ∧ i ∈ ((cfg0.win 4).blk t).view.set := by
  have hi0 : (i 0).val < 32 := (i 0).isLt
  have hi1 : (i 1).val < 1024 := (i 1).isLt
  have hi2 : (i 2).val < 256 := (i 2).isLt
  obtain ⟨t, ht⟩ := batch_block_onto ⟨(i 0).val / 4, by omega⟩
  have ht' : win0_4.index t (0 : Fin 3) = (i 0).val / 4 := ht
  obtain ⟨-, -, -, -, -, -, -, -, -, -, e1, e2, -⟩ := block_index_facts t
  refine ⟨t, flush0_4 t, ?_⟩
  rw [mem_block_iff]
  intro a
  match a with
  | ⟨0, _⟩ => show win0_4.index t (0 : Fin 3) * 4 ≤ (i 0).val ∧ (i 0).val < win0_4.index t (0 : Fin 3) * 4 + 4; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 256 ≤ (i 2).val ∧ (i 2).val < win0_4.index t (2 : Fin 3) * 256 + 256; omega

/-- THE MIDDLE ARRAY after the region is the closed form of the arrays the region finds. -/
theorem mid_final (c : Dev nD) : (dats m 0 c).arrAt 4 cfg0.N = mid m c :=
  (dats m 0 c).arrAt_eq_of_cover 4 (mid m c) (fun t _ => written_back_eq m c t) blocks_cover

end Cert.KernelBlocks

end
-- ==== Proof.LayoutFeat.lean ====
/-
  The layout changes both programs put around their kernels, read at coordinates.

  The kernel works on a channels-minor view: [batch, channel, height, width] is transposed to
  [batch, height, width, channel] and the two pixel axes are merged, so entry (b, k, c) of the view is the map's
  entry (b, c, k / 32, k % 32); the result goes back the same way, entry (b, c, h, w) from (b, h·32 + w, c).
  The reference flattens the maps to [batch·channel, pixel] and back: row b·256 + c, pixel h·32 + w.
  A reshape keeps the row-major position and a transpose permutes the coordinates; each lemma is that, per axis.
-/
import proofs.«169458_g2000706281692390_pallasbulk_37_19_alg».proof.Proof.Spec
import Idealize.ShloMosaic.Lib.Pipeline.Value

noncomputable section

namespace Cert.LayoutFeat

open Idealize.ShloMosaic Idealize.ShloMosaic.ValueIdx Cert.Spec

variable {α : Type}

/-- [batch, height, width, channel]. -/
abbrev SNHWC : Shape := ⟨4, ![32, 32, 32, 256]⟩
/-- [batch, pixel, channel]. -/
abbrev SMid : Shape := ⟨3, ![32, 1024, 256]⟩

/-- The channels-minor view of a map at (b, k, c) is the map at (b, c, k / 32, k % 32). -/
theorem toMid_apply (X : SFeat.Idx → α) (ht : SFeat.Transposes [0, 2, 3, 1] SNHWC) (hc : SNHWC.ShapeCasts SMid)
    (b : Fin 32) (k : Fin 1024) (c : Fin 256) :
    shapeCast SMid (transpose SNHWC [0, 2, 3, 1] X ht) hc (ix3 b k c) = X (ix4 b c (pixH k) (pixW k)) := by
  refine (shapeCast_apply _ hc (ix3 b k c) (ix4 b (pixH k) (pixW k) c) ?_).trans ?_
  · rw [Shape.rowMajor_val_four, Shape.rowMajor_val_three]
    show ((b.val * 32 + (pixH k).val) * 32 + (pixW k).val) * 256 + c.val = (b.val * 1024 + k.val) * 256 + c.val
    have := k.isLt
    simp only [pixH, pixW]
    omega
  · refine transpose_apply _ X ht _ (ix4 b c (pixH k) (pixW k)) ?_
    intro a
    match a with
    | ⟨0, _⟩ => rfl
    | ⟨1, _⟩ => rfl
    | ⟨2, _⟩ => rfl
    | ⟨3, _⟩ => rfl

/-- Back from the channels-minor view: entry (b, c, h, w) is the view's entry (b, h·32 + w, c). -/
theorem fromMid_apply (K : SMid.Idx → α) (hc : SMid.ShapeCasts SNHWC) (ht : SNHWC.Transposes [0, 3, 1, 2] SFeat)
    (b : Fin 32) (c : Fin 256) (h w : Fin 32) :
    transpose SFeat [0, 3, 1, 2] (shapeCast SNHWC K hc) ht (ix4 b c h w) = K (ix3 b (pix h w) c) := by
  refine (transpose_apply _ _ ht (ix4 b c h w) (ix4 b h w c) ?_).trans ?_
  · intro a
    match a with
    | ⟨0, _⟩ => rfl
    | ⟨1, _⟩ => rfl
    | ⟨2, _⟩ => rfl
    | ⟨3, _⟩ => rfl
  · refine shapeCast_apply K hc _ (ix3 b (pix h w) c) ?_
    rw [Shape.rowMajor_val_three, Shape.rowMajor_val_four]
    show (b.val * 1024 + (pix h w).val) * 256 + c.val = ((b.val * 32 + h.val) * 32 + w.val) * 256 + c.val
    simp only [pix]
    omega

/-- A map flattened to [batch·channel, pixel] by a reshape is `flat` of it. -/
theorem flat_eq (X : SFeat.Idx → α) (hc : SFeat.ShapeCasts SFlat) (r : Fin 8192) (q : Fin 1024) :
    shapeCast SFlat X hc (ix2 r q) = X (ix4 (rowB r) (rowC r) (pixH q) (pixW q)) := by
  refine shapeCast_apply X hc (ix2 r q) (ix4 (rowB r) (rowC r) (pixH q) (pixW q)) ?_
  rw [Shape.rowMajor_val_four, Shape.rowMajor_val_two]
  show (((rowB r).val * 256 + (rowC r).val) * 32 + (pixH q).val) * 32 + (pixW q).val = r.val * 1024 + q.val
  have := r.isLt; have := q.isLt
  simp only [rowB, rowC, pixH, pixW]
  omega

/-- The same as an equation of arrays on the extended reals. -/
theorem flat_eq' (X : SFeat.Idx → EReal) (hc : SFeat.ShapeCasts SFlat) : shapeCast SFlat X hc = flat X := by
  funext i
  rw [eq_ix2 i]
  exact flat_eq X hc (i 0) (i 1)

/-- A [batch·channel, pixel] array reshaped to [batch, channel, height, width], at (b, c, h, w): row b·256 + c, pixel h·32 + w. -/
theorem unflat_apply (A : SFlat.Idx → α) (hc : SFlat.ShapeCasts SFeat) (b : Fin 32) (c : Fin 256) (h w : Fin 32) :
    shapeCast SFeat A hc (ix4 b c h w) = A (ix2 (row b c) (pix h w)) := by
  refine shapeCast_apply A hc (ix4 b c h w) (ix2 (row b c) (pix h w)) ?_
  rw [Shape.rowMajor_val_two, Shape.rowMajor_val_four]
  show (row b c).val * 1024 + (pix h w).val = ((b.val * 256 + c.val) * 32 + h.val) * 32 + w.val
  simp only [row, pix]
  omega

theorem pixH_pix (h w : Fin 32) : pixH (pix h w) = h := by
  have := h.isLt; have := w.isLt
  refine Fin.ext ?_
  simp only [pixH, pix]
  omega

theorem pixW_pix (h w : Fin 32) : pixW (pix h w) = w := by
  have := h.isLt; have := w.isLt
  refine Fin.ext ?_
  simp only [pixW, pix]
  omega

theorem pix_pixH_pixW (k : Fin 1024) : pix (pixH k) (pixW k) = k := by
  have := k.isLt
  refine Fin.ext ?_
  simp only [pixH, pixW, pix]
  omega

end Cert.LayoutFeat

end
-- ==== Proof.KernelForm.lean ====
/- The closed form over the [batch, pixel, channel] layout, read back in the [batch, channel, height, width] layout
   of the arguments: with each middle array the argument re-laid, it is the logistic form of the specification. -/
import proofs.«169458_g2000706281692390_pallasbulk_37_19_alg».proof.Proof.KernelPayload
import proofs.«169458_g2000706281692390_pallasbulk_37_19_alg».proof.Proof.LayoutFeat

set_option maxRecDepth 16384

noncomputable section

namespace Cert.KernelForm

open Idealize.ShloMosaic Idealize.ShloMosaic.ValueIdx
open Cert.Spec Cert.KernelPayload

variable (X0 X1 : SFeat.Idx → EReal) (W1 : SW1.Idx → EReal) (W2 : SW2.Idx → EReal)
variable (Y0 Y1 : (⟨3, ![32, 1024, 256]⟩ : Shape).Idx → EReal)

/-- Pixel k of the middle layout is pixel (k / 32, k % 32) of the map: the pooled values agree. -/
theorem pool_eq (h0 : ∀ (b : Fin 32) (k : Fin 1024) (c : Fin 256), Y0 (ix3 b k c) = X0 (ix4 b c (pixH k) (pixW k)))
    (h1 : ∀ (b : Fin 32) (k : Fin 1024) (c : Fin 256), Y1 (ix3 b k c) = X1 (ix4 b c (pixH k) (pixW k))) (b : Fin 32) :
    KernelPayload.pool Y0 Y1 b = kpool X0 X1 b := by
  funext c
  unfold KernelPayload.pool kpool
  simp only [h0, h1]

/-- So the mixed value at (b, pixel (h, w), c) is the specification's at (b, c, h, w). -/
theorem mix_eq_skf (h0 : ∀ (b : Fin 32) (k : Fin 1024) (c : Fin 256), Y0 (ix3 b k c) = X0 (ix4 b c (pixH k) (pixW k)))
    (h1 : ∀ (b : Fin 32) (k : Fin 1024) (c : Fin 256), Y1 (ix3 b k c) = X1 (ix4 b c (pixH k) (pixW k)))
    (b : Fin 32) (c : Fin 256) (h w : Fin 32) :
    mix W1 W2 Y0 Y1 b (pix h w) c = skf X0 X1 W1 W2 b c h w := by
  unfold mix skf
  rw [pool_eq X0 X1 Y0 Y1 h0 h1 b, h0, h1, Cert.LayoutFeat.pixH_pix, Cert.LayoutFeat.pixW_pix]
  rfl

end Cert.KernelForm

end
-- ==== Proof.KernelHost.lean ====
/- The host lines around the region: before it each feature map is re-laid channels-minor with the two pixel axes
   merged, after it the result is laid back. Each is read at coordinates. -/
import proofs.«169458_g2000706281692390_pallasbulk_37_19_alg».proof.Proof.Gen.KernelIdeal.Frame
import proofs.«169458_g2000706281692390_pallasbulk_37_19_alg».proof.Proof.LayoutFeat

set_option maxRecDepth 16384

noncomputable section

namespace Cert.KernelHost

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (m : (ℓ : Loc nD τ sig) → Buf (Elt Ideal) ℓ)

/-- The first middle array as the region finds it: the first map transposed and reshaped. -/
theorem V_v1_eq (c : Dev nD) : (V m c main_v1 : S32x1024x256.Idx → EReal)
    = shapeCast S32x1024x256 (transpose S32x32x32x256 [0, 2, 3, 1] (m ((c : Thread nD τ).loc main_arg0) : S32x256x32x32.Idx → EReal)
        transposes_S32x256x32x32_S32x32x32x256_0_2_3_1) shapeCasts_S32x32x32x256_S32x1024x256 := by
  show StableHlo.after hostOps0 (fun b => m (c, b)) (Proc.devRef .tc main_v1) = _
  after_results
  rfl

/-- The second middle array as the region finds it: the second map transposed and reshaped. -/
theorem V_v3_eq (c : Dev nD) : (V m c main_v3 : S32x1024x256.Idx → EReal)
    = shapeCast S32x1024x256 (transpose S32x32x32x256 [0, 2, 3, 1] (m ((c : Thread nD τ).loc main_arg1) : S32x256x32x32.Idx → EReal)
        transposes_S32x256x32x32_S32x32x32x256_0_2_3_1) shapeCasts_S32x32x32x256_S32x1024x256 := by
  show StableHlo.after hostOps0 (fun b => m (c, b)) (Proc.devRef .tc main_v3) = _
  after_results
  rfl

/-- Entry (b, k, c) of the first middle array is the first map's entry (b, c, k / 32, k % 32). -/
theorem V_v1_apply (c : Dev nD) (b : Fin 32) (k : Fin 1024) (cc : Fin 256) :
    (V m c main_v1 : S32x1024x256.Idx → EReal) (ix3 b k cc)
      = (m ((c : Thread nD τ).loc main_arg0) : SFeat.Idx → EReal) (ix4 b cc (pixH k) (pixW k)) := by
  rw [V_v1_eq]
  exact Cert.LayoutFeat.toMid_apply _ _ _ b k cc

/-- Entry (b, k, c) of the second middle array is the second map's entry (b, c, k / 32, k % 32). -/
theorem V_v3_apply (c : Dev nD) (b : Fin 32) (k : Fin 1024) (cc : Fin 256) :
    (V m c main_v3 : S32x1024x256.Idx → EReal) (ix3 b k cc)
      = (m ((c : Thread nD τ).loc main_arg1) : SFeat.Idx → EReal) (ix4 b cc (pixH k) (pixW k)) := by
  rw [V_v3_eq]
  exact Cert.LayoutFeat.toMid_apply _ _ _ b k cc

/-- The result after the lines that follow the region: the middle array the region leaves, reshaped and transposed back. -/
theorem tail_v6_eq (c : Dev nD) : (Pipeline.afterTail₀ cfgs (dats m) 0 (V0 m) [hostOps1] c main_v6 : S32x256x32x32.Idx → EReal)
    = transpose S32x256x32x32 [0, 3, 1, 2] (shapeCast S32x32x32x256 ((dats m 0 c).arrAt 4 cfg0.N : S32x1024x256.Idx → EReal)
        shapeCasts_S32x1024x256_S32x32x32x256) transposes_S32x32x32x256_S32x256x32x32_0_3_1_2 := by
  unfold Pipeline.afterTail₀
  show StableHlo.after hostOps1 _ (Proc.devRef .tc main_v6) = _
  after_results
  rw [show Pipeline.withArrays (cfgs 0).spec c (V0 m c) (fun w => (dats m 0 c).arrAt w (cfgs 0).N) (Proc.tc.devRef main_v4)
      = (dats m 0 c).arrAt 4 cfg0.N from
    Pipeline.withArrays_arr spec0 launch0.win.arr_inj c (V0 m c) (fun w => (dats m 0 c).arrAt w cfg0.N) 4]
  rfl

/-- Entry (b, c, h, w) of the result is entry (b, h·32 + w, c) of the middle array the region leaves. -/
theorem tail_v6_apply (c : Dev nD) (b : Fin 32) (cc : Fin 256) (h w : Fin 32) :
    (Pipeline.afterTail₀ cfgs (dats m) 0 (V0 m) [hostOps1] c main_v6 : S32x256x32x32.Idx → EReal) (ix4 b cc h w)
      = ((dats m 0 c).arrAt 4 cfg0.N : S32x1024x256.Idx → EReal) (ix3 b (pix h w) cc) := by
  rw [tail_v6_eq]
  exact Cert.LayoutFeat.fromMid_apply _ _ _ b cc h w

end Cert.KernelHost

end
-- ==== Proof.KernelRun.lean ====
/- The kernel's run: its result array is the kernel's closed form of the argument arrays. -/
import proofs.«169458_g2000706281692390_pallasbulk_37_19_alg».proof.Proof.Gen.KernelIdeal.Frame
import proofs.«169458_g2000706281692390_pallasbulk_37_19_alg».proof.Proof.Spec
import proofs.«169458_g2000706281692390_pallasbulk_37_19_alg».proof.Proof.KernelBlocks
import proofs.«169458_g2000706281692390_pallasbulk_37_19_alg».proof.Proof.KernelForm
import proofs.«169458_g2000706281692390_pallasbulk_37_19_alg».proof.Proof.KernelHost

set_option maxRecDepth 16384

noncomputable section

namespace Cert.KernelRun

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- The result after the lines that follow the region is the logistic form of the arguments: entry (b, c, h, w) is
    entry (b, h·32 + w, c) of the middle array, which is the mixed value of the re-laid maps there. -/
theorem result_eq (m : (ℓ : Loc nD τ sig) → Buf (Elt Ideal) ℓ) (c : Dev nD) :
    (Pipeline.afterTail₀ cfgs (dats m) 0 (V0 m) [hostOps1] c main_v6 : S32x256x32x32.Idx → EReal)
      = Cert.Spec.SKF (m ((c.tc : Thread nD τ).loc main_arg0)) (m ((c.tc : Thread nD τ).loc main_arg1))
          (m ((c.tc : Thread nD τ).loc main_arg2)) (m ((c.tc : Thread nD τ).loc main_arg3)) := by
  funext i
  obtain ⟨b, cc, h, w, rfl⟩ : ∃ (b : Fin 32) (cc : Fin 256) (h w : Fin 32), i = ix4 b cc h w :=
    ⟨i 0, i 1, i 2, i 3, eq_ix4 i⟩
  rw [Cert.KernelHost.tail_v6_apply, Cert.KernelBlocks.mid_final]
  show Cert.KernelPayload.mix (V m c main_arg2) (V m c main_arg3) (V m c main_v1) (V m c main_v3) b (Cert.Spec.pix h w) cc
      = Cert.Spec.skf _ _ _ _ b cc h w
  rw [V_main_arg2, V_main_arg3]
  exact Cert.KernelForm.mix_eq_skf _ _ _ _ _ _ (Cert.KernelHost.V_v1_apply m c) (Cert.KernelHost.V_v3_apply m c) b cc h w

/-- Every weakly fair execution of the kernel's program ends with its result at the logistic form of the arguments,
    and the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6)
        = Cert.Spec.SKF (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c))),
      ((h c).1 1).trans (((dats m 0 c).arrAt_in 1 rfl _).trans ((A_eq m c 1).trans (V_main_arg3 m c)))⟩)
    (run_main m ρ)

end Cert.KernelRun

end
-- ==== Proof.PoolPieces.lean ====
/- Region 0 of the reference, one grid point: what the body leaves in the output block, as a function of the two
   input blocks and of what the block held before. -/
import proofs.«169458_g2000706281692390_pallasbulk_37_19_alg».proof.Proof.Gen.ReferenceIdeal.Frame
import Idealize.ShloMosaic.Lib.Pipeline.Value
import Idealize.ShloMosaic.Lib.Tactic

set_option maxRecDepth 16384

noncomputable section

namespace Cert.RefPool

open Idealize.ShloMosaic Idealize.ShloMosaic.TcCoe Idealize.ShloMosaic.Tactic
open Idealize.SL Idealize.SL.Sem
open Idealize.ShloMosaic.Pipeline (Dat Cfg Window)
open Cert.ReferenceIdeal Cert.ReferenceIdeal.Gen

variable {F : FTy → Type} [FloatOps F]

/-- The offsets of a rank-3 block that starts at the origin. -/
theorem hz3 : (![0, 0, 0] : Fin 3 → Nat) = fun _ => 0 := funext fun a => by fin_cases a <;> rfl
/-- The offsets of a rank-2 block that starts at the origin. -/
theorem hz2 : (![0, 0] : Fin 2 → Nat) = fun _ => 0 := funext fun a => by fin_cases a <;> rfl

/-- A point that continues a half: the block held `xo`, and the body's one store, which covers the block, leaves
    the carried contents plus the lane sum of the two input blocks' sum. -/
theorem out_B (c : Dev nD) (i : grid0.Coords) (a2 : Memref sig .tc .vmem S8192x128 .f32) (h2 : a2.IsWhole)
    (a3 : Memref sig .tc .vmem S8192x128 .f32) (h3 : a3.IsWhole) (a4 : Memref sig .tc .vmem S1x8192x1 .f32) (h4 : a4.IsWhole)
    (hc : ¬cond0_0 i) (x0 x1 : Vec F S8192x128 .f32) (xo : Vec F S1x8192x1 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero (S := S1x8192x1) hz3]
  simp only [View.readAt_eq_ld, h2.read_unread, h3.read_unread, h4.read_unread, View.ld_unit_zero (S := S8192x128) hz2,
    View.ld_unit_zero (S := S1x8192x1) hz3]

/-- A point that opens a half: the body first stores the zero block, reads it back, and its last store leaves
    the zero block plus the lane sum of the two input blocks' sum. -/
theorem out_A (c : Dev nD) (i : grid0.Coords) (a2 : Memref sig .tc .vmem S8192x128 .f32) (h2 : a2.IsWhole)
    (a3 : Memref sig .tc .vmem S8192x128 .f32) (h3 : a3.IsWhole) (a4 : Memref sig .tc .vmem S1x8192x1 .f32) (h4 : a4.IsWhole)
    (hc : cond0_0 i) (x0 x1 : Vec F S8192x128 .f32) :
    out0_A_2 c i a2 h2 a3 h3 a4 h4 hc x0 x1 = k0_pay2 x0 x1 k0_pay1 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x8192x1) hz3, View.readCov_unit_zero (S := S1x8192x1) _ hz3]
  simp only [View.readAt_eq_ld, h2.read_unread, h3.read_unread, View.ld_unit_zero (S := S8192x128) hz2]

end Cert.RefPool

end
-- ==== Proof.PoolPoint.lean ====
/- Region 0 of the reference, one grid point, on the extended reals: the body's two stored values read at an entry.
   The zero block is 0 everywhere; the accumulating store holds at (0, r, 0) the entry the block held there plus the
   sum over the 128 lanes of row r of the two input blocks' entries. -/
import proofs.«169458_g2000706281692390_pallasbulk_37_19_alg».proof.Proof.Gen.ReferenceIdeal.Skeleton
import Idealize.ShloMosaic.Lib.Pipeline.Value
import Idealize.ShloMosaic.Lib.ValueIdx
import Idealize.ShloMosaic.PureOps.Ideal.Laws

set_option maxRecDepth 16384

noncomputable section

namespace Cert.RefPool

open Idealize.ShloMosaic Idealize.ShloMosaic.ValueIdx
open Cert.ReferenceIdeal Cert.ReferenceIdeal.Gen

/-- The block the opening point stores first is zero at every entry. -/
theorem pay1_apply (j : S1x8192x1.Idx) : k0_pay1 (F := Ideal) j = 0 :=
  Ideal.ofBits_zero_f32

/-- Entry (r, 0) of an [8192, 1] column is entry (0, r, 0) of the same column seen as a [1, 8192, 1] block. -/
theorem addLead_apply {α : Type} (v : S8192x1.Idx → α) (h : S8192x1.ShapeCasts S1x8192x1) (r : Fin 8192) :
    shapeCast S1x8192x1 v h (ix3 (0 : Fin 1) r (0 : Fin 1)) = v (ix2 r (0 : Fin 1)) :=
  shapeCast_apply v h (ix3 (0 : Fin 1) r (0 : Fin 1)) (ix2 r (0 : Fin 1)) (by
    rw [Shape.rowMajor_val_two, Shape.rowMajor_val_three]
    show r.val * 1 + 0 = (0 * 8192 + r.val) * 1 + 0
    omega)

/-- and the other way round. -/
theorem dropLead_apply {α : Type} (v : S1x8192x1.Idx → α) (h : S1x8192x1.ShapeCasts S8192x1) (r : Fin 8192) :
    shapeCast S8192x1 v h (ix2 r (0 : Fin 1)) = v (ix3 (0 : Fin 1) r (0 : Fin 1)) :=
  shapeCast_apply v h (ix2 r (0 : Fin 1)) (ix3 (0 : Fin 1) r (0 : Fin 1)) (by
    rw [Shape.rowMajor_val_two, Shape.rowMajor_val_three]
    show (0 * 8192 + r.val) * 1 + 0 = r.val * 1 + 0
    omega)

/-- Entry r of an [8192] vector is entry (r, 0) of it seen as an [8192, 1] column. -/
theorem addTrail_apply {α : Type} (v : S8192.Idx → α) (h : S8192.ShapeCasts S8192x1) (r : Fin 8192) :
    shapeCast S8192x1 v h (ix2 r (0 : Fin 1)) = v (ix1 r) :=
  shapeCast_apply v h (ix2 r (0 : Fin 1)) (ix1 r) (by
    rw [Shape.rowMajor_val_one, Shape.rowMajor_val_two]
    show r.val = r.val * 1 + 0
    omega)

/-- The lane sum of an [8192, 128] block at row r: the sum over the 128 lanes of its entries in that row. -/
theorem laneSum_apply (v : FVec Ideal S8192x128 .f32) (h : S8192x128.Reduces [1] S8192) (hφ : FKind.Formats .f32)
    (hacc : (0x00000000#32 : BitVec 32) = FKind.add.neutral .f32 hφ) (r : Fin 8192) :
    multiReduction .add [1] S8192 v 0x00000000#32 h hφ hacc (ix1 r) = ∑ l : Fin 128, v (ix2 r l) := by
  refine (Ideal.multiReduction_add_single v 0x00000000#32 h hφ hacc (ix1 r)).trans ?_
  refine Finset.sum_congr rfl fun l _ => congrArg v ?_
  funext a
  match a with
  | ⟨0, _⟩ => exact Fin.ext rfl
  | ⟨1, _⟩ => exact Fin.ext rfl

/-- The accumulating store at (0, r, 0): what the block held there, plus the lane sum of the two input blocks' sum. -/
theorem pay2_apply (x0 x1 : Vec Ideal S8192x128 .f32) (xo : Vec Ideal S1x8192x1 .f32) (r : Fin 8192) :
    k0_pay2 (F := Ideal) x0 x1 xo (ix3 (0 : Fin 1) r (0 : Fin 1))
      = xo (ix3 (0 : Fin 1) r (0 : Fin 1)) + ∑ l : Fin 128, (x0 (ix2 r l) + x1 (ix2 r l)) := by
  unfold k0_pay2
  dsimp only
  refine (addLead_apply _ _ r).trans ?_
  refine congrArg₂ (· + ·) (dropLead_apply xo _ r) ?_
  refine (addTrail_apply _ _ r).trans ?_
  refine (laneSum_apply _ _ _ _ r).trans ?_
  refine Finset.sum_congr rfl fun l _ => ?_
  exact congrArg₂ (· + ·) (congrFun (shapeCast_self x0 _) _) (congrFun (shapeCast_self x1 _) _)

end Cert.RefPool

end
-- ==== Proof.PoolFold.lean ====
/- Region 0 of the reference, across the grid: after point n the output block holds, at (0, r, 0), the sum of the
   lane sums of the column tiles 4·(n / 4) … n of row r of both flattened maps — the tiles of the half that point n
   belongs to, up to n. -/
import proofs.«169458_g2000706281692390_pallasbulk_37_19_alg».proof.Proof.PoolPieces
import proofs.«169458_g2000706281692390_pallasbulk_37_19_alg».proof.Proof.PoolPoint

set_option maxRecDepth 16384

noncomputable section

namespace Cert.RefPool

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen

variable (V : (c : Dev nD) → (b : Ref sig .tc) → Buf (Elt Ideal) ((c : Thread nD τ).loc b)) (c : Dev nD)

/-- The block indices at point t: the inputs' column block is t itself (all 8192 rows), the output's block is
    half t / 4. Decided over the eight points. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 3) = t.val / 4 ∧ win0_2.index t (1 : Fin 3) = 0 ∧ win0_2.index t (2 : Fin 3) = 0 :=
  (by decide +kernel : ∀ t : Fin grid0.N, _)

/-- Lane l of column tile n is column n·128 + l of the 1024. -/
def lane (n : ℕ) (h : n < 8) (l : Fin 128) : Fin 1024 := ⟨n * 128 + l.val, by have := l.isLt; omega⟩

/-- Column tile n's contribution to row r: the sum over its 128 lanes of both maps' entries (nothing past the
    eighth tile). -/
def tile (A0 A1 : S8192x1024.Idx → EReal) (n : ℕ) (r : Fin 8192) : EReal :=
  if h : n < 8 then ∑ l : Fin 128, (A0 (ix2 r (lane n h l)) + A1 (ix2 r (lane n h l))) else 0

/-- Entry (r, l) of the first input's block at point t is entry (r, t·128 + l) of the first flattened map. -/
theorem iblk0_0_apply (t : Fin cfg0.N) (ht : t.val < 8) (r : Fin 8192) (l : Fin 128) :
    (iblk0 V c 0 t : Vec Ideal S8192x128 .f32) (ix2 r l) = V c main_v0 (ix2 r (lane t.val ht l)) := by
  obtain ⟨e0, e1, -⟩ := idx_facts t
  unfold iblk0
  rw [View.read_apply]
  show V c main_v0 _ = V c main_v0 _
  refine congrArg (V c main_v0) ?_
  funext a
  apply Fin.ext
  match a with
  | ⟨0, _⟩ => show win0_0.index t (0 : Fin 2) * 8192 + 1 * r.val = r.val; rw [e0]; omega
  | ⟨1, _⟩ => show win0_0.index t (1 : Fin 2) * 128 + 1 * l.val = t.val * 128 + l.val; rw [e1]; omega

/-- The same for the second input. -/
theorem iblk0_1_apply (t : Fin cfg0.N) (ht : t.val < 8) (r : Fin 8192) (l : Fin 128) :
    (iblk0 V c 1 t : Vec Ideal S8192x128 .f32) (ix2 r l) = V c main_v1 (ix2 r (lane t.val ht l)) := by
  obtain ⟨-, -, e0, e1, -⟩ := idx_facts t
  unfold iblk0
  rw [View.read_apply]
  show V c main_v1 _ = V c main_v1 _
  refine congrArg (V c main_v1) ?_
  funext a
  apply Fin.ext
  match a with
  | ⟨0, _⟩ => show win0_1.index t (0 : Fin 2) * 8192 + 1 * r.val = r.val; rw [e0]; omega
  | ⟨1, _⟩ => show win0_1.index t (1 : Fin 2) * 128 + 1 * l.val = t.val * 128 + l.val; rw [e1]; omega

/-- One accumulating store, read at (0, r, 0): when the two input blocks are column tile n of the two flattened maps,
    the store leaves what the block held there plus tile n's contribution to row r. -/
theorem step_apply (x0 x1 : Vec Ideal S8192x128 .f32) (xo : Vec Ideal S1x8192x1 .f32) (A0 A1 : S8192x1024.Idx → EReal)
    (n : ℕ) (hn : n < 8) (h0 : ∀ (r : Fin 8192) (l : Fin 128), x0 (ix2 r l) = A0 (ix2 r (lane n hn l)))
    (h1 : ∀ (r : Fin 8192) (l : Fin 128), x1 (ix2 r l) = A1 (ix2 r (lane n hn l))) (r : Fin 8192) :
    k0_pay2 (F := Ideal) x0 x1 xo (ix3 (0 : Fin 1) r (0 : Fin 1)) = xo (ix3 (0 : Fin 1) r (0 : Fin 1)) + tile A0 A1 n r := by
  refine (pay2_apply x0 x1 xo r).trans (congrArg (HAdd.hAdd _) ?_)
  unfold tile
  rw [dif_pos hn]
  exact Finset.sum_congr rfl fun l _ => congrArg₂ (· + ·) (h0 r l) (h1 r l)

/-- A point that opens a half leaves its own tile's contribution. -/
theorem caseA (t : Fin cfg0.N) (h0 : t.val % 4 = 0) (r : Fin 8192) :
    outsAt0 (F := Ideal) V c t.val t.isLt (ix3 (0 : Fin 1) r (0 : Fin 1)) = tile (V c main_v0) (V c main_v1) t.val r := by
  have ht : t.val < 8 := lt_of_lt_of_eq t.isLt (show cfg0.N = 8 from N_0)
  rw [outsAt0_A V c t h0]
  refine (congrFun (out_A (F := Ideal) c (grid0.coords t) (ms0_0 t) (hs0_0 t) (ms0_1 t) (hs0_1 t) (ms0_2 t) (hs0_2 t)
    ((hcond0_0 t).mpr h0) (iblk0 V c 0 t) (iblk0 V c 1 t)) _).trans ?_
  refine (step_apply (iblk0 V c 0 t) (iblk0 V c 1 t) (k0_pay1 (F := Ideal)) (V c main_v0) (V c main_v1) t.val ht
    (iblk0_0_apply V c t ht) (iblk0_1_apply V c t ht) r).trans ?_
  rw [pay1_apply, zero_add]

/-- A point that continues a half adds its own tile's contribution to what the point before left. -/
theorem caseB (t : Fin cfg0.N) (h0 : ¬t.val % 4 = 0) (r : Fin 8192) :
    outsAt0 (F := Ideal) V c t.val t.isLt (ix3 (0 : Fin 1) r (0 : Fin 1))
      = outsAt0 (F := Ideal) V c (t.val - 1) (Nat.lt_of_le_of_lt (Nat.sub_le _ _) t.isLt) (ix3 (0 : Fin 1) r (0 : Fin 1))
        + tile (V c main_v0) (V c main_v1) t.val r := by
  have ht : t.val < 8 := lt_of_lt_of_eq t.isLt (show cfg0.N = 8 from N_0)
  rw [outsAt0_B V c t h0]
  refine (congrFun (out_B (F := Ideal) c (grid0.coords t) (ms0_0 t) (hs0_0 t) (ms0_1 t) (hs0_1 t) (ms0_2 t) (hs0_2 t)
    (fun h => h0 ((hcond0_0 t).mp h)) (iblk0 V c 0 t) (iblk0 V c 1 t)
    (outsAt0 V c (t.val - 1) (Nat.lt_of_le_of_lt (Nat.sub_le _ _) t.isLt))) _).trans ?_
  exact step_apply (iblk0 V c 0 t) (iblk0 V c 1 t) (outsAt0 V c (t.val - 1) (Nat.lt_of_le_of_lt (Nat.sub_le _ _) t.isLt))
    (V c main_v0) (V c main_v1) t.val ht (iblk0_0_apply V c t ht) (iblk0_1_apply V c t ht) r

/-- THE RUNNING SUM. After point n the block holds at (0, r, 0) the contributions of the tiles 4·(n / 4) … n:
    by induction on the point — a point ≡ 0 (mod 4) starts afresh, every other one adds its tile. -/
theorem outsAt_apply : ∀ (n : ℕ) (hn : n < cfg0.N) (r : Fin 8192),
    outsAt0 (F := Ideal) V c n hn (ix3 (0 : Fin 1) r (0 : Fin 1))
      = ∑ s ∈ Finset.range (n % 4 + 1), tile (V c main_v0) (V c main_v1) (4 * (n / 4) + s) r
  | 0, hn, r => (caseA V c ⟨0, hn⟩ rfl r).trans (by simp)
  | n + 1, hn, r => by
    by_cases h0 : (n + 1) % 4 = 0
    · refine (caseA V c ⟨n + 1, hn⟩ h0 r).trans ?_
      show tile _ _ (n + 1) r = _
      have e1 : (n + 1) % 4 + 1 = 1 := by omega
      have e2 : 4 * ((n + 1) / 4) = n + 1 := by omega
      rw [e1, e2, Finset.sum_range_one, Nat.add_zero]
    · refine (caseB V c ⟨n + 1, hn⟩ h0 r).trans ?_
      show outsAt0 V c n _ _ + tile _ _ (n + 1) r = _
      rw [outsAt_apply n (Nat.lt_of_succ_lt hn) r]
      have e1 : (n + 1) % 4 + 1 = (n % 4 + 1) + 1 := by omega
      have e2 : (n + 1) / 4 = n / 4 := by omega
      have e3 : 4 * (n / 4) + (n % 4 + 1) = n + 1 := by omega
      rw [e1, e2, Finset.sum_range_succ _ (n % 4 + 1), e3]

end Cert.RefPool

end
-- ==== Proof.Pool.lean ====
/- Region 0 of the reference: what the accumulating pass leaves in its [2, 8192, 1] output. -/
import proofs.«169458_g2000706281692390_pallasbulk_37_19_alg».proof.Proof.Gen.ReferenceIdeal.Frame
import proofs.«169458_g2000706281692390_pallasbulk_37_19_alg».proof.Proof.Spec
import proofs.«169458_g2000706281692390_pallasbulk_37_19_alg».proof.Proof.PoolFold

set_option maxRecDepth 16384

noncomputable section

namespace Cert.RefPool

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen

/-- A [1, 8192, 1] block is known once its entries (0, r, 0) are. -/
theorem block_ext (X G : S1x8192x1.Idx → EReal)
    (h : ∀ r : Fin 8192, X (ix3 (0 : Fin 1) r (0 : Fin 1)) = G (ix3 (0 : Fin 1) r (0 : Fin 1))) : X = G := by
  funext y
  obtain ⟨r, rfl⟩ : ∃ r : Fin 8192, y = ix3 (0 : Fin 1) r (0 : Fin 1) := ⟨y 1, by
    funext a
    match a with
    | ⟨0, _⟩ => exact Fin.ext (by have h0 : (y 0).val < 1 := (y 0).isLt; show (y 0).val = 0; omega)
    | ⟨1, _⟩ => rfl
    | ⟨2, _⟩ => exact Fin.ext (by have h2 : (y 2).val < 1 := (y 2).isLt; show (y 2).val = 0; omega)⟩
  exact h r

/-- The four tiles of half s, added up, are the half sum of the specification. -/
theorem half_sum (A0 A1 : S8192x1024.Idx → EReal) (s : Fin 2) (r : Fin 8192) :
    ∑ k ∈ Finset.range 4, tile A0 A1 (4 * s.val + k) r = Cert.Spec.partialc A0 A1 s r := by
  rw [Finset.sum_range]
  unfold Cert.Spec.partialc
  refine Finset.sum_congr rfl fun k _ => ?_
  have hk : 4 * s.val + k.val < 8 := by have := s.isLt; have := k.isLt; omega
  unfold tile
  rw [dif_pos hk]
  rfl

section Flush

variable (V : (c : Dev nD) → (b : Ref sig .tc) → Buf (Elt Ideal) ((c : Thread nD τ).loc b)) (c : Dev nD)

/-- What the last point of a half writes back is that half's block of the half sums. -/
theorem flushed_eq (t : Fin cfg0.N) (hf : (cfg0.win 2).flush t = true) :
    (dat0 (F := Ideal) V c).flushed 2 t
      = ((cfg0.win 2).blk t).view.read (Elt Ideal) (Cert.Spec.partialSum (V c main_v0) (V c main_v1)) := by
  have ht : t.val < 8 := lt_of_lt_of_eq t.isLt (show cfg0.N = 8 from N_0)
  have h3 : t.val % 4 = 3 := (flush0_2 t).mp hf
  obtain ⟨-, -, -, -, e0, e1, e2⟩ := idx_facts t
  show (cfg0.win 2).cut (grid0.coords t) ((dat0 (F := Ideal) V c).after 2 t) = _
  rw [after0_2]
  refine block_ext (outsAt0 (F := Ideal) V c t.val t.isLt)
    (((cfg0.win 2).blk t).view.read (Elt Ideal) (Cert.Spec.partialSum (V c main_v0) (V c main_v1))) fun r => ?_
  rw [outsAt_apply V c t.val t.isLt r, View.read_apply]
  show _ = Cert.Spec.partialSum (V c main_v0) (V c main_v1) (((cfg0.win 2).blk t).view.emb (ix3 (0 : Fin 1) r (0 : Fin 1)))
  have hemb : ((cfg0.win 2).blk t).view.emb (ix3 (0 : Fin 1) r (0 : Fin 1))
      = ix3 (⟨t.val / 4, by omega⟩ : Fin 2) r (0 : Fin 1) := by
    funext a
    apply Fin.ext
    match a with
    | ⟨0, _⟩ => show win0_2.index t (0 : Fin 3) * 1 + 1 * 0 = t.val / 4; rw [e0]; omega
    | ⟨1, _⟩ => show win0_2.index t (1 : Fin 3) * 8192 + 1 * r.val = r.val; rw [e1]; omega
    | ⟨2, _⟩ => show win0_2.index t (2 : Fin 3) * 1 + 1 * 0 = 0; rw [e2]
  rw [hemb]
  show _ = Cert.Spec.partialc (V c main_v0) (V c main_v1) (⟨t.val / 4, by omega⟩ : Fin 2) r
  rw [← half_sum, h3]

/-- Entry (s, r, 0) of the array lies in the block that point 4·s + 3 writes back. -/
theorem covered (i : ((cfg0.win 2).arr.view.loc (c.tc : Thread nD τ)).2.ty.Idx) :
    ∃ t : Fin cfg0.N, (cfg0.win 2).flush t = true ∧ i ∈ ((cfg0.win 2).blk t).view.set := by
  have i0 : (i 0).val < 2 := (i 0).isLt
  have i1 : (i 1).val < 8192 := (i 1).isLt
  have i2 : (i 2).val < 1 := (i 2).isLt
  have hlt : 4 * (i 0).val + 3 < cfg0.N :=
    lt_of_lt_of_eq (show 4 * (i 0).val + 3 < 8 by omega) (show (8 : ℕ) = cfg0.N from N_0.symm)
  obtain ⟨t, htv⟩ : ∃ t : Fin cfg0.N, t.val = 4 * (i 0).val + 3 := ⟨⟨_, hlt⟩, rfl⟩
  obtain ⟨-, -, -, -, e0, e1, e2⟩ := idx_facts t
  refine ⟨t, (flush0_2 t).mpr (by omega), ?_⟩
  show i ∈ ((View.whole main_v2).slice (win0_2.rect t)).set
  rw [View.set_slice_whole, Rect.mem_set_unit]
  intro a
  match a with
  | ⟨0, _⟩ =>
    show win0_2.index t (0 : Fin 3) * 1 ≤ (i 0).val ∧ (i 0).val < win0_2.index t (0 : Fin 3) * 1 + 1
    rw [e0]; omega
  | ⟨1, _⟩ =>
    show win0_2.index t (1 : Fin 3) * 8192 ≤ (i 1).val ∧ (i 1).val < win0_2.index t (1 : Fin 3) * 8192 + 8192
    rw [e1]; omega
  | ⟨2, _⟩ =>
    show win0_2.index t (2 : Fin 3) * 1 ≤ (i 2).val ∧ (i 2).val < win0_2.index t (2 : Fin 3) * 1 + 1
    rw [e2]; omega

end Flush

/-- After the last grid point the output array holds, at (s, r, 0), the sum over the four 128-lane tiles of half s
    of both flattened maps' row r. -/
theorem pool_final (V : (c : Dev nD) → (b : Ref sig .tc) → Buf (Elt Ideal) ((c : Thread nD τ).loc b)) (c : Dev nD) :
    (dat0 (F := Ideal) V c).arrAt 2 cfg0.N = Cert.Spec.partialSum (V c main_v0) (V c main_v1) :=
  (dat0 (F := Ideal) V c).arrAt_eq_of_cover 2 (Cert.Spec.partialSum (V c main_v0) (V c main_v1))
    (flushed_eq V c) (covered c)

end Cert.RefPool

end
-- ==== Proof.WsumPay.lean ====
/- The weighted-sum body's stored value, read at one index: the two tiles times the two weight columns, added. -/
import proofs.«169458_g2000706281692390_pallasbulk_37_19_alg».proof.Proof.Gen.ReferenceIdeal.Skeleton
import Idealize.ShloMosaic.Lib.ValueIdx
import Idealize.ShloMosaic.Lib.ValueLayout

set_option maxRecDepth 16384

noncomputable section

namespace Cert.RefWsum

open Idealize.ShloMosaic Idealize.ShloMosaic.ValueIdx
open Cert.ReferenceIdeal Cert.ReferenceIdeal.Gen

variable {α : Type}

/-- A column [a, 1] broadcast to [a, b] reads, at (p, q), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The stored tile at (r, l): tile 0 at (r, l) times the first weight column at r, plus tile 1 at (r, l) times the second
    weight column at r. The weight columns arrive as [1, 8192, 1] rows, are viewed [8192, 1] and spread over the 128 lanes. -/
theorem pay_apply (x1 x2 : Vec Ideal S8192x128 .f32) (w0 w1 : Vec Ideal S1x8192x1 .f32) (r : Fin 8192) (l : Fin 128) :
    k1_pay1 (F := Ideal) x1 w0 x2 w1 (ix2 r l)
      = x1 (ix2 r l) * w0 (ix3 (0 : Fin 1) r (0 : Fin 1)) + x2 (ix2 r l) * w1 (ix3 (0 : Fin 1) r (0 : Fin 1)) := by
  unfold k1_pay1
  rw [addf_apply, mulf_apply, mulf_apply, shapeCast_self, shapeCast_self,
    broadcastTo_a1_ab_apply, broadcastTo_a1_ab_apply, shapeCast_1ab_ab_apply, shapeCast_1ab_ab_apply]

end Cert.RefWsum

end
-- ==== Proof.WsumOut.lean ====
/- What the weighted-sum body leaves in the output tile, read at one index, from the three blocks it is given. -/
import proofs.«169458_g2000706281692390_pallasbulk_37_19_alg».proof.Proof.Gen.ReferenceIdeal.Frame
import proofs.«169458_g2000706281692390_pallasbulk_37_19_alg».proof.Proof.WsumPay
import Idealize.ShloMosaic.Lib.Pipeline.Value

set_option maxRecDepth 16384

noncomputable section

namespace Cert.RefWsum

open Idealize.ShloMosaic Idealize.ShloMosaic.TcCoe Idealize.ShloMosaic.ValueIdx
open Cert.ReferenceIdeal Cert.ReferenceIdeal.Gen

/-- The zero offsets of a rank-2 access, as a constant function. -/
theorem hz2 : (![0, 0] : Fin 2 → Nat) = fun _ => 0 := funext fun a => by fin_cases a <;> rfl

/-- Row k of the weights, read through its [1, 8192, 1] rectangle at (0, r, 0), is the weights at (k, r, 0): k = 0. -/
theorem row0_idx (r : Fin 8192) :
    r1_1.toLoadRect.idx (ix3 (0 : Fin 1) r (0 : Fin 1)) = ix3 (0 : Fin 2) r (0 : Fin 1) := by
  funext a; apply Fin.ext
  match a with
  | ⟨0, _⟩ => rfl
  | ⟨1, _⟩ => show 0 + 1 * r.val = r.val; omega
  | ⟨2, _⟩ => rfl

/-- k = 1. -/
theorem row1_idx (r : Fin 8192) :
    r1_2.toLoadRect.idx (ix3 (0 : Fin 1) r (0 : Fin 1)) = ix3 (1 : Fin 2) r (0 : Fin 1) := by
  funext a; apply Fin.ext
  match a with
  | ⟨0, _⟩ => rfl
  | ⟨1, _⟩ => show 0 + 1 * r.val = r.val; omega
  | ⟨2, _⟩ => rfl

/-- The output tile at (r, l): tile 0 at (r, l) times weight (0, r), plus tile 1 at (r, l) times weight (1, r). -/
theorem out_apply (x0 : Vec Ideal S2x8192x1 .f32) (x1 x2 : Vec Ideal S8192x128 .f32) (r : Fin 8192) (l : Fin 128) :
    out1_3 (F := Ideal) x0 x1 x2 (ix2 r l)
      = x1 (ix2 r l) * x0 (ix3 (0 : Fin 2) r (0 : Fin 1)) + x2 (ix2 r l) * x0 (ix3 (1 : Fin 2) r (0 : Fin 1)) := by
  unfold out1_3
  rw [View.canon_unit_zero hz2]
  simp only [View.ld_unit_zero (S := S8192x128) hz2]
  rw [pay_apply]
  show x1 (ix2 r l) * x0 (r1_1.toLoadRect.idx (ix3 (0 : Fin 1) r (0 : Fin 1)))
      + x2 (ix2 r l) * x0 (r1_2.toLoadRect.idx (ix3 (0 : Fin 1) r (0 : Fin 1))) = _
  rw [row0_idx, row1_idx]

end Cert.RefWsum

end
-- ==== Proof.WsumBlock.lean ====
/- What each grid point of the weighted sum writes back: its tile of columns of the closed form. -/
import proofs.«169458_g2000706281692390_pallasbulk_37_19_alg».proof.Proof.Gen.ReferenceIdeal.Frame
import proofs.«169458_g2000706281692390_pallasbulk_37_19_alg».proof.Proof.WsumOut
import proofs.«169458_g2000706281692390_pallasbulk_37_19_alg».proof.Proof.Spec
import Idealize.ShloMosaic.Lib.Pipeline.Value

set_option maxRecDepth 16384

noncomputable section

namespace Cert.RefWsum

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen

/-- The output tile as one function of its index. -/
theorem out_fun (x0 : Vec Ideal S2x8192x1 .f32) (x1 x2 : Vec Ideal S8192x128 .f32) :
    out1_3 (F := Ideal) x0 x1 x2
      = fun i => x1 i * x0 (ix3 (0 : Fin 2) (i 0) (0 : Fin 1)) + x2 i * x0 (ix3 (1 : Fin 2) (i 0) (0 : Fin 1)) := by
  funext i
  obtain ⟨r, l, rfl⟩ : ∃ (r : Fin 8192) (l : Fin 128), i = ix2 r l := ⟨i 0, i 1, eq_ix2 i⟩
  exact out_apply x0 x1 x2 r l

/-- The windows' block indices over the 8 points: the weights' window stays at block (0, 0, 0); the two maps' windows and
    the output's are all at block (0, t). -/
theorem idx_facts : ∀ t : Fin cfg1.N,
    win1_0.index t (0 : Fin 3) = 0 ∧ win1_0.index t (1 : Fin 3) = 0 ∧ win1_0.index t (2 : Fin 3) = 0
    ∧ win1_1.index t (0 : Fin 2) = 0 ∧ win1_1.index t (1 : Fin 2) = t.val
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-- One element of the closed form from the three blocks' elements: the arithmetic is the same term once each block's
    element is named by its place in its array. -/
theorem point_eq (AT : Cert.Spec.SPart.Idx → EReal) (A0 A1 : Cert.Spec.SFlat.Idx → EReal)
    (x0 : Vec Ideal S2x8192x1 .f32) (x1 x2 : Vec Ideal S8192x128 .f32) (y : S8192x128.Idx) (i : Cert.Spec.SFlat.Idx)
    (h1 : x1 y = A0 i) (h2 : x2 y = A1 i)
    (h3 : ∀ k : Fin 2, x0 (ix3 k (y 0) (0 : Fin 1)) = AT (ix3 k (i 0) (0 : Fin 1))) :
    x1 y * x0 (ix3 (0 : Fin 2) (y 0) (0 : Fin 1)) + x2 y * x0 (ix3 (1 : Fin 2) (y 0) (0 : Fin 1)) = Cert.Spec.wsum AT A0 A1 i := by
  rw [h1, h2, h3 0, h3 1]; rfl

variable (V : (c : Dev nD) → (b : Ref sig .tc) → Buf (Elt Ideal) ((c : Thread nD τ).loc b))

/-- What point t writes back is tile t of the closed form: the two maps' blocks sit at block (0, t) exactly as the output's
    does, and the weights' block is the whole weights array, so element (r, l) of the tile is the closed form at
    (r, 128·t + l). -/
theorem flushed_eq (c : Dev nD) (t : Fin cfg1.N) :
    (dat1 (F := Ideal) V c).flushed 3 t
      = ((cfg1.win 3).blk t).view.read (Elt Ideal) (Cert.Spec.wsum (V c main_v24) (V c main_v0) (V c main_v1)) := by
  show (cfg1.win 3).cut (grid1.coords t) ((dat1 V c).after 3 t) = _
  rw [after1_3, out_fun (iblk1 V c 0 t) (iblk1 V c 1 t) (iblk1 V c 2 t)]
  obtain ⟨a0, a1, a2, b0, b1, c0, c1, d0, d1⟩ := idx_facts t
  funext j
  rw [View.read_apply]
  refine point_eq (V c main_v24) (V c main_v0) (V c main_v1) (iblk1 V c 0 t) (iblk1 V c 1 t) (iblk1 V c 2 t)
    ((cfg1.win 3).xinj (grid1.coords t) j) (((cfg1.win 3).blk t).view.emb j) ?_ ?_ ?_
  · unfold iblk1
    rw [View.read_apply]
    show V c main_v0 (((cfg1.win 1).blk t).view.emb j) = V c main_v0 (((cfg1.win 3).blk t).view.emb j)
    refine congrArg _ (funext fun a => Fin.ext ?_)
    match a with
    | ⟨0, _⟩ => show win1_1.index t (0 : Fin 2) * 8192 + 1 * (j 0).val = win1_3.index t (0 : Fin 2) * 8192 + 1 * (j 0).val; rw [b0, d0]
    | ⟨1, _⟩ => show win1_1.index t (1 : Fin 2) * 128 + 1 * (j 1).val = win1_3.index t (1 : Fin 2) * 128 + 1 * (j 1).val; rw [b1, d1]
  · unfold iblk1
    rw [View.read_apply]
    show V c main_v1 (((cfg1.win 2).blk t).view.emb j) = V c main_v1 (((cfg1.win 3).blk t).view.emb j)
    refine congrArg _ (funext fun a => Fin.ext ?_)
    match a with
    | ⟨0, _⟩ => show win1_2.index t (0 : Fin 2) * 8192 + 1 * (j 0).val = win1_3.index t (0 : Fin 2) * 8192 + 1 * (j 0).val; rw [c0, d0]
    | ⟨1, _⟩ => show win1_2.index t (1 : Fin 2) * 128 + 1 * (j 1).val = win1_3.index t (1 : Fin 2) * 128 + 1 * (j 1).val; rw [c1, d1]
  · intro k
    unfold iblk1
    rw [View.read_apply]
    show V c main_v24 (((cfg1.win 0).blk t).view.emb (ix3 k (j 0) (0 : Fin 1)))
      = V c main_v24 (ix3 k ((((cfg1.win 3).blk t).view.emb j) 0) (0 : Fin 1))
    refine congrArg _ (funext fun a => Fin.ext ?_)
    match a with
    | ⟨0, _⟩ => show win1_0.index t (0 : Fin 3) * 2 + 1 * k.val = k.val; rw [a0]; omega
    | ⟨1, _⟩ => show win1_0.index t (1 : Fin 3) * 8192 + 1 * (j 0).val = win1_3.index t (0 : Fin 2) * 8192 + 1 * (j 0).val; rw [a1, d0]
    | ⟨2, _⟩ => show win1_0.index t (2 : Fin 3) * 1 + 1 * 0 = 0; rw [a2]

end Cert.RefWsum

end
-- ==== Proof.Wsum.lean ====
/- Region 1 of the reference: the weighted sum of the two flattened maps, tile by tile. -/
import proofs.«169458_g2000706281692390_pallasbulk_37_19_alg».proof.Proof.Gen.ReferenceIdeal.Frame
import proofs.«169458_g2000706281692390_pallasbulk_37_19_alg».proof.Proof.Spec
import proofs.«169458_g2000706281692390_pallasbulk_37_19_alg».proof.Proof.WsumBlock
import Idealize.ShloMosaic.Lib.Pipeline.Value

set_option maxRecDepth 16384

noncomputable section

namespace Cert.RefWsum

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen

/-- An index of the flattened output is in point t's block iff each coordinate is in the block's range on its axis. -/
theorem mem_blk (t : Fin cfg1.N) (i : S8192x1024.Idx) :
    i ∈ ((cfg1.win 3).blk t).view.set ↔ ∀ a : Fin 2, win1_3.index t a * S8192x128.size a ≤ (i a).val ∧ (i a).val < win1_3.index t a * S8192x128.size a + S8192x128.size a := by
  show i ∈ ((View.whole main_v25).slice (win1_3.rect t)).set ↔ _
  rw [View.set_slice_whole, Rect.mem_set_unit]
  exact Iff.rfl

/-- The 8 tiles of 128 columns cover the 1024 columns: column q is in the tile of point q / 128. -/
theorem cover (i : S8192x1024.Idx) : ∃ t : Fin cfg1.N, (cfg1.win 3).flush t = true ∧ i ∈ ((cfg1.win 3).blk t).view.set := by
  have hN : grid1.N = 8 := N_1
  have hi0 : (i 0).val < 8192 := (i 0).isLt
  have hi1 : (i 1).val < 1024 := (i 1).isLt
  have ht : (i 1).val / 128 < cfg1.N := by show (i 1).val / 128 < grid1.N; rw [hN]; omega
  refine ⟨⟨(i 1).val / 128, ht⟩, flush1_3 _, ?_⟩
  rw [mem_blk]
  obtain ⟨-, -, -, -, -, -, -, d0, d1⟩ := idx_facts ⟨(i 1).val / 128, ht⟩
  intro a
  match a with
  | ⟨0, _⟩ =>
    show win1_3.index ⟨(i 1).val / 128, ht⟩ (0 : Fin 2) * 8192 ≤ (i 0).val ∧ (i 0).val < win1_3.index ⟨(i 1).val / 128, ht⟩ (0 : Fin 2) * 8192 + 8192
    rw [d0]; omega
  | ⟨1, _⟩ =>
    show win1_3.index ⟨(i 1).val / 128, ht⟩ (1 : Fin 2) * 128 ≤ (i 1).val ∧ (i 1).val < win1_3.index ⟨(i 1).val / 128, ht⟩ (1 : Fin 2) * 128 + 128
    rw [d1]; show (i 1).val / 128 * 128 ≤ (i 1).val ∧ (i 1).val < (i 1).val / 128 * 128 + 128; omega

/-- After the last grid point the output array holds, at (r, q), map 0 times weight (0, r) plus map 1 times weight (1, r). -/
theorem wsum_final (V : (c : Dev nD) → (b : Ref sig .tc) → Buf (Elt Ideal) ((c : Thread nD τ).loc b)) (c : Dev nD) :
    (dat1 (F := Ideal) V c).arrAt 3 cfg1.N = Cert.Spec.wsum (V c main_v24) (V c main_v0) (V c main_v1) := by
  exact (dat1 (F := Ideal) V c).arrAt_eq_of_cover 3 (Cert.Spec.wsum (V c main_v24) (V c main_v0) (V c main_v1))
    (fun t _ => flushed_eq V c t) cover

end Cert.RefWsum

end
-- ==== Proof.RefChainDot.lean ====
/- The reference's two matrix products read one entry at a time: entry (b, j) of a product is the sum over
   the contracted coordinate of the left operand's row b times the right operand's column j. -/
import proofs.«169458_g2000706281692390_pallasbulk_37_19_alg».proof.Proof.Gen.ReferenceIdeal
import Idealize.ShloMosaic.PureOps.Ideal.Laws
import Idealize.ShloMosaic.Lib.ValueIdx

set_option maxRecDepth 16384

noncomputable section

namespace Cert.RefChain

open Idealize.ShloMosaic Idealize.ShloMosaic.ValueIdx
open Cert.ReferenceIdeal
open Cert.ReferenceIdeal.Facts₀

/-! ## The first product, [32, 256] · [256, 32] -/

theorem dotA_lhs0 (i : S32x32.Idx) (q : dot_S32x256_S256x32_S32x32_1_0_0_1_n_n.contr.Idx) :
    (dot_S32x256_S256x32_S32x32_1_0_0_1_n_n.lhsIdx i q 0).val = (i 0).val := by
  unfold DotDims.lhsIdx
  rw [dif_neg (show ¬(0 : Fin S32x256.rank) ∈ dot_S32x256_S256x32_S32x32_1_0_0_1_n_n.lhsBatch by decide),
    dif_pos (show (0 : Fin S32x256.rank) ∈ dot_S32x256_S256x32_S32x32_1_0_0_1_n_n.lhsNonContracting by decide)]
  rfl

theorem dotA_lhs1 (i : S32x32.Idx) (q : dot_S32x256_S256x32_S32x32_1_0_0_1_n_n.contr.Idx) :
    (dot_S32x256_S256x32_S32x32_1_0_0_1_n_n.lhsIdx i q 1).val = (q ⟨0, by decide⟩).val :=
  dot_S32x256_S256x32_S32x32_1_0_0_1_n_n.lhsIdx_val_of_single rfl i q

theorem dotA_rhs0 (i : S32x32.Idx) (q : dot_S32x256_S256x32_S32x32_1_0_0_1_n_n.contr.Idx) :
    (dot_S32x256_S256x32_S32x32_1_0_0_1_n_n.rhsIdx i q 0).val = (q ⟨0, by decide⟩).val :=
  dot_S32x256_S256x32_S32x32_1_0_0_1_n_n.rhsIdx_val_of_single rfl i q

theorem dotA_rhs1 (i : S32x32.Idx) (q : dot_S32x256_S256x32_S32x32_1_0_0_1_n_n.contr.Idx) :
    (dot_S32x256_S256x32_S32x32_1_0_0_1_n_n.rhsIdx i q 1).val = (i 1).val := by
  unfold DotDims.rhsIdx
  rw [dif_neg (show ¬(1 : Fin S256x32.rank) ∈ dot_S32x256_S256x32_S32x32_1_0_0_1_n_n.rhsBatch by decide),
    dif_pos (show (1 : Fin S256x32.rank) ∈ dot_S32x256_S256x32_S32x32_1_0_0_1_n_n.rhsNonContracting by decide)]
  rfl

/-- Entry (b, j) of the first product. -/
theorem dotA_apply (l : FVec Ideal S32x256 .f32) (r : FVec Ideal S256x32 .f32) (b : Fin 32) (j : Fin 32) :
    Host.dotGeneral (F := Ideal) dot_S32x256_S256x32_S32x32_1_0_0_1_n_n none l r (ix2 b j)
      = ∑ c : Fin 256, l (ix2 b c) * r (ix2 c j) := by
  simp only [Host.dotGeneral]
  rw [Ideal.dotGeneral_apply, ← Equiv.sum_comp (ValueIdx.contrEquiv1 dot_S32x256_S256x32_S32x32_1_0_0_1_n_n 256 rfl rfl).symm]
  refine Finset.sum_congr rfl fun k _ => ?_
  have hk := ValueIdx.contrEquiv1_symm_val dot_S32x256_S256x32_S32x32_1_0_0_1_n_n 256 rfl rfl k
  have el : dot_S32x256_S256x32_S32x32_1_0_0_1_n_n.lhsIdx (ix2 b j)
      ((ValueIdx.contrEquiv1 dot_S32x256_S256x32_S32x32_1_0_0_1_n_n 256 rfl rfl).symm k) = ix2 b k :=
    funext fun a => Fin.ext (by
      match a with
      | ⟨0, _⟩ => exact dotA_lhs0 _ _
      | ⟨1, _⟩ => exact (dotA_lhs1 _ _).trans hk)
  have er : dot_S32x256_S256x32_S32x32_1_0_0_1_n_n.rhsIdx (ix2 b j)
      ((ValueIdx.contrEquiv1 dot_S32x256_S256x32_S32x32_1_0_0_1_n_n 256 rfl rfl).symm k) = ix2 k j :=
    funext fun a => Fin.ext (by
      match a with
      | ⟨0, _⟩ => exact (dotA_rhs0 _ _).trans hk
      | ⟨1, _⟩ => exact dotA_rhs1 _ _)
  rw [el, er]

/-! ## The second product, [32, 32] · [32, 512] -/

theorem dotB_lhs0 (i : S32x512.Idx) (q : dot_S32x32_S32x512_S32x512_1_0_0_1_n_n.contr.Idx) :
    (dot_S32x32_S32x512_S32x512_1_0_0_1_n_n.lhsIdx i q 0).val = (i 0).val := by
  unfold DotDims.lhsIdx
  rw [dif_neg (show ¬(0 : Fin S32x32.rank) ∈ dot_S32x32_S32x512_S32x512_1_0_0_1_n_n.lhsBatch by decide),
    dif_pos (show (0 : Fin S32x32.rank) ∈ dot_S32x32_S32x512_S32x512_1_0_0_1_n_n.lhsNonContracting by decide)]
  rfl

theorem dotB_lhs1 (i : S32x512.Idx) (q : dot_S32x32_S32x512_S32x512_1_0_0_1_n_n.contr.Idx) :
    (dot_S32x32_S32x512_S32x512_1_0_0_1_n_n.lhsIdx i q 1).val = (q ⟨0, by decide⟩).val :=
  dot_S32x32_S32x512_S32x512_1_0_0_1_n_n.lhsIdx_val_of_single rfl i q

theorem dotB_rhs0 (i : S32x512.Idx) (q : dot_S32x32_S32x512_S32x512_1_0_0_1_n_n.contr.Idx) :
    (dot_S32x32_S32x512_S32x512_1_0_0_1_n_n.rhsIdx i q 0).val = (q ⟨0, by decide⟩).val :=
  dot_S32x32_S32x512_S32x512_1_0_0_1_n_n.rhsIdx_val_of_single rfl i q

theorem dotB_rhs1 (i : S32x512.Idx) (q : dot_S32x32_S32x512_S32x512_1_0_0_1_n_n.contr.Idx) :
    (dot_S32x32_S32x512_S32x512_1_0_0_1_n_n.rhsIdx i q 1).val = (i 1).val := by
  unfold DotDims.rhsIdx
  rw [dif_neg (show ¬(1 : Fin S32x512.rank) ∈ dot_S32x32_S32x512_S32x512_1_0_0_1_n_n.rhsBatch by decide),
    dif_pos (show (1 : Fin S32x512.rank) ∈ dot_S32x32_S32x512_S32x512_1_0_0_1_n_n.rhsNonContracting by decide)]
  rfl

/-- Entry (b, n) of the second product. -/
theorem dotB_apply (l : FVec Ideal S32x32 .f32) (r : FVec Ideal S32x512 .f32) (b : Fin 32) (n : Fin 512) :
    Host.dotGeneral (F := Ideal) dot_S32x32_S32x512_S32x512_1_0_0_1_n_n none l r (ix2 b n)
      = ∑ j : Fin 32, l (ix2 b j) * r (ix2 j n) := by
  simp only [Host.dotGeneral]
  rw [Ideal.dotGeneral_apply, ← Equiv.sum_comp (ValueIdx.contrEquiv1 dot_S32x32_S32x512_S32x512_1_0_0_1_n_n 32 rfl rfl).symm]
  refine Finset.sum_congr rfl fun k _ => ?_
  have hk := ValueIdx.contrEquiv1_symm_val dot_S32x32_S32x512_S32x512_1_0_0_1_n_n 32 rfl rfl k
  have el : dot_S32x32_S32x512_S32x512_1_0_0_1_n_n.lhsIdx (ix2 b n)
      ((ValueIdx.contrEquiv1 dot_S32x32_S32x512_S32x512_1_0_0_1_n_n 32 rfl rfl).symm k) = ix2 b k :=
    funext fun a => Fin.ext (by
      match a with
      | ⟨0, _⟩ => exact dotB_lhs0 _ _
      | ⟨1, _⟩ => exact (dotB_lhs1 _ _).trans hk)
  have er : dot_S32x32_S32x512_S32x512_1_0_0_1_n_n.rhsIdx (ix2 b n)
      ((ValueIdx.contrEquiv1 dot_S32x32_S32x512_S32x512_1_0_0_1_n_n 32 rfl rfl).symm k) = ix2 k n :=
    funext fun a => Fin.ext (by
      match a with
      | ⟨0, _⟩ => exact (dotB_rhs0 _ _).trans hk
      | ⟨1, _⟩ => exact dotB_rhs1 _ _)
  rw [el, er]

end Cert.RefChain

end
-- ==== Proof.LibStackReduce.lean ====
/-
  A stack of matrices read one coordinate at a time: one-axis sums and maxima on the extended reals.

  General in every extent and in the float format. An index of a rank-3 stack `[T, B, C]` is `ix3 p u w` (member, row,
  column). Reducing along the LAST axis at `(p, u)` ranges over the columns of row `u` of member `p`; along the MIDDLE axis
  at `(p, w)` over the rows of column `w`; reducing a rank-2 array `[T, B]` along its second axis at `p` over row `p`'s
  entries. `lift_last` / `lift_mid` / `lift_row` say which source index lies over a result index (for any one-axis reduction's
  own `Shape.Reduces.lift`, a kernel's or a host program's); `sum_last` / `sum_mid` / `sum_row` read a kernel's
  `vector.multi_reduction <add>` as a `∑` over that axis's coordinate, `max_last` / `max_mid` a `<maximumf>` one as the fold of
  `max` from the accumulator's value. Apply them in term mode with every argument explicit
  (`refine (sum_last x acc h hφ hacc p u).trans ?_`): the evidence that the accumulator is the neutral element type-checks
  only after unfolding, so `rw` and `simp` do not find the pattern in a printed term.
-/
import Idealize.ShloMosaic.Lib.ValueIdx
import Idealize.ShloMosaic.Lib.Pipeline.Value
import Idealize.ShloMosaic.PureOps.Ideal.Laws

noncomputable section

namespace Cert.StackReduce

open Idealize.ShloMosaic Idealize.ShloMosaic.ValueIdx

section reductions

variable {φ : FTy} {T B C : ℕ}

/-- The source index over `(p, u)` with `k` on the last axis. -/
theorem lift_last (h : (⟨3, ![T, B, C]⟩ : Shape).Reduces [(2 : Fin 3)] ⟨2, ![T, B]⟩) (p : Fin T) (u : Fin B) (k : Fin C) :
    h.lift (ix2 p u) k = ix3 p u k :=
  funext fun c => Fin.ext (by match c with | ⟨0, _⟩ => rfl | ⟨1, _⟩ => rfl | ⟨2, _⟩ => rfl)

/-- The source index over `(p, w)` with `k` on the middle axis. -/
theorem lift_mid (h : (⟨3, ![T, B, C]⟩ : Shape).Reduces [(1 : Fin 3)] ⟨2, ![T, C]⟩) (p : Fin T) (w : Fin C) (k : Fin B) :
    h.lift (ix2 p w) k = ix3 p k w :=
  funext fun c => Fin.ext (by match c with | ⟨0, _⟩ => rfl | ⟨1, _⟩ => rfl | ⟨2, _⟩ => rfl)

/-- The source index over row `p` with `k` on the second axis. -/
theorem lift_row (h : (⟨2, ![T, B]⟩ : Shape).Reduces [(1 : Fin 2)] ⟨1, ![T]⟩) (p : Fin T) (k : Fin B) :
    h.lift (ix1 p) k = ix2 p k :=
  funext fun c => Fin.ext (by match c with | ⟨0, _⟩ => rfl | ⟨1, _⟩ => rfl)

theorem sum_last (x : FVec Ideal ⟨3, ![T, B, C]⟩ φ) (acc : BitVec φ.bits)
    (h : (⟨3, ![T, B, C]⟩ : Shape).Reduces [(2 : Fin 3)] ⟨2, ![T, B]⟩) (hφ : FKind.Formats φ)
    (hacc : acc = FKind.add.neutral φ hφ) (p : Fin T) (u : Fin B) :
    multiReduction .add [(2 : Fin 3)] ⟨2, ![T, B]⟩ x acc h hφ hacc (ix2 p u) = ∑ w : Fin C, x (ix3 p u w) :=
  (Ideal.multiReduction_add_single x acc h hφ hacc (ix2 p u)).trans
    (Finset.sum_congr rfl fun k _ => congrArg x (lift_last h p u k))

theorem sum_mid (x : FVec Ideal ⟨3, ![T, B, C]⟩ φ) (acc : BitVec φ.bits)
    (h : (⟨3, ![T, B, C]⟩ : Shape).Reduces [(1 : Fin 3)] ⟨2, ![T, C]⟩) (hφ : FKind.Formats φ)
    (hacc : acc = FKind.add.neutral φ hφ) (p : Fin T) (w : Fin C) :
    multiReduction .add [(1 : Fin 3)] ⟨2, ![T, C]⟩ x acc h hφ hacc (ix2 p w) = ∑ u : Fin B, x (ix3 p u w) :=
  (Ideal.multiReduction_add_single x acc h hφ hacc (ix2 p w)).trans
    (Finset.sum_congr rfl fun k _ => congrArg x (lift_mid h p w k))

theorem sum_row (x : FVec Ideal ⟨2, ![T, B]⟩ φ) (acc : BitVec φ.bits)
    (h : (⟨2, ![T, B]⟩ : Shape).Reduces [(1 : Fin 2)] ⟨1, ![T]⟩) (hφ : FKind.Formats φ)
    (hacc : acc = FKind.add.neutral φ hφ) (p : Fin T) :
    multiReduction .add [(1 : Fin 2)] ⟨1, ![T]⟩ x acc h hφ hacc (ix1 p) = ∑ u : Fin B, x (ix2 p u) :=
  (Ideal.multiReduction_add_single x acc h hφ hacc (ix1 p)).trans
    (Finset.sum_congr rfl fun k _ => congrArg x (lift_row h p k))

theorem max_last (x : FVec Ideal ⟨3, ![T, B, C]⟩ φ) (acc : BitVec φ.bits)
    (h : (⟨3, ![T, B, C]⟩ : Shape).Reduces [(2 : Fin 3)] ⟨2, ![T, B]⟩) (hφ : FKind.Formats φ)
    (hacc : acc = FKind.maximumf.neutral φ hφ) (p : Fin T) (u : Fin B) :
    multiReduction .maximumf [(2 : Fin 3)] ⟨2, ![T, B]⟩ x acc h hφ hacc (ix2 p u)
      = (Finset.univ : Finset (Fin C)).fold max (Ideal.ofBits φ acc) (fun w => x (ix3 p u w)) :=
  (Ideal.multiReduction_maximumf_single x acc h hφ hacc (ix2 p u)).trans
    (congrArg (fun f => (Finset.univ : Finset (Fin C)).fold max (Ideal.ofBits φ acc) f)
      (funext fun k => congrArg x (lift_last h p u k)))

theorem max_mid (x : FVec Ideal ⟨3, ![T, B, C]⟩ φ) (acc : BitVec φ.bits)
    (h : (⟨3, ![T, B, C]⟩ : Shape).Reduces [(1 : Fin 3)] ⟨2, ![T, C]⟩) (hφ : FKind.Formats φ)
    (hacc : acc = FKind.maximumf.neutral φ hφ) (p : Fin T) (w : Fin C) :
    multiReduction .maximumf [(1 : Fin 3)] ⟨2, ![T, C]⟩ x acc h hφ hacc (ix2 p w)
      = (Finset.univ : Finset (Fin B)).fold max (Ideal.ofBits φ acc) (fun u => x (ix3 p u w)) :=
  (Ideal.multiReduction_maximumf_single x acc h hφ hacc (ix2 p w)).trans
    (congrArg (fun f => (Finset.univ : Finset (Fin B)).fold max (Ideal.ofBits φ acc) f)
      (funext fun k => congrArg x (lift_mid h p w k)))

end reductions

end Cert.StackReduce

end
-- ==== Proof.RefChainLayout.lean ====
/- The reference's layout operations and one-axis reductions between its two passes, each read at explicit
   coordinates: the reshapes between rows and (batch, channel) pairs and between the 512 logit columns and
   (branch, channel) pairs, the keepdims broadcasts of a per-(batch, channel) value over the two branches, the
   transpose that makes the branch the leading axis, and the sums and the maximum over an axis of extent two. -/
import Idealize.ShloMosaic.PureOps.Ideal.Laws
import Idealize.ShloMosaic.Lib.IdealHost
import Idealize.ShloMosaic.Lib.Pipeline.Value
import Idealize.ShloMosaic.Lib.ValueIdx
import proofs.«169458_g2000706281692390_pallasbulk_37_19_alg».proof.Proof.Spec
import proofs.«169458_g2000706281692390_pallasbulk_37_19_alg».proof.Proof.LibStackReduce

set_option maxRecDepth 16384

noncomputable section

namespace Cert.RefChain

open Idealize.ShloMosaic Idealize.ShloMosaic.ValueIdx
open Cert.Spec

/-! ## Reshapes: the same row-major position -/

section layout
variable {α : Type}

/-- [8192, 1] as [32, 256]: (b, c) is row b·256 + c. -/
theorem reshape_rows_apply (x : (⟨2, ![8192, 1]⟩ : Shape).Idx → α)
    (h : (⟨2, ![8192, 1]⟩ : Shape).ShapeCasts ⟨2, ![32, 256]⟩) (b : Fin 32) (c : Fin 256) :
    shapeCast ⟨2, ![32, 256]⟩ x h (ix2 b c) = x (ix2 (row b c) (0 : Fin 1)) :=
  shapeCast_apply x h _ _ (by
    rw [Shape.rowMajor_val_two, Shape.rowMajor_val_two]
    show (b.val * 256 + c.val) * 1 + 0 = b.val * 256 + c.val
    omega)

/-- [32, 512] as [32, 2, 256]: (b, k, c) is column k·256 + c of row b. -/
theorem reshape_branches_apply (x : (⟨2, ![32, 512]⟩ : Shape).Idx → α)
    (h : (⟨2, ![32, 512]⟩ : Shape).ShapeCasts ⟨3, ![32, 2, 256]⟩) (b : Fin 32) (k : Fin 2) (c : Fin 256) :
    shapeCast ⟨3, ![32, 2, 256]⟩ x h (ix3 b k c) = x (ix2 b (col k c)) :=
  shapeCast_apply x h _ _ (by
    rw [Shape.rowMajor_val_two, Shape.rowMajor_val_three]
    show b.val * 512 + (k.val * 256 + c.val) = (b.val * 2 + k.val) * 256 + c.val
    omega)

/-- [2, 32, 256] as [2, 8192, 1]: row r of branch k is (k, r / 256, r % 256). -/
theorem reshape_flat_apply (x : (⟨3, ![2, 32, 256]⟩ : Shape).Idx → α)
    (h : (⟨3, ![2, 32, 256]⟩ : Shape).ShapeCasts ⟨3, ![2, 8192, 1]⟩) (k : Fin 2) (r : Fin 8192) (z : Fin 1) :
    shapeCast ⟨3, ![2, 8192, 1]⟩ x h (ix3 k r z) = x (ix3 k (rowB r) (rowC r)) :=
  shapeCast_apply x h _ _ (by
    rw [Shape.rowMajor_val_three, Shape.rowMajor_val_three]
    show (k.val * 32 + r.val / 256) * 256 + r.val % 256 = (k.val * 8192 + r.val) * 1 + z.val
    have := z.isLt
    omega)

/-! ## The transpose and the keepdims broadcasts -/

/-- The branch axis moved to the front: (k, b, c) reads (b, k, c). -/
theorem transpose_branch_apply (x : (⟨3, ![32, 2, 256]⟩ : Shape).Idx → α)
    (h : (⟨3, ![32, 2, 256]⟩ : Shape).Transposes [1, 0, 2] ⟨3, ![2, 32, 256]⟩) (k : Fin 2) (b : Fin 32) (c : Fin 256) :
    transpose ⟨3, ![2, 32, 256]⟩ [1, 0, 2] x h (ix3 k b c) = x (ix3 b k c) :=
  transpose_apply _ x h _ _ fun a => match a with | ⟨0, _⟩ => rfl | ⟨1, _⟩ => rfl | ⟨2, _⟩ => rfl

/-- A per-(batch, channel) value with a unit branch axis put back. -/
theorem keep_mid_apply (x : (⟨2, ![32, 256]⟩ : Shape).Idx → α)
    (h : (⟨2, ![32, 256]⟩ : Shape).BroadcastsInDim ⟨3, ![32, 1, 256]⟩ ![0, 2]) (b : Fin 32) (u : Fin 1) (c : Fin 256) :
    broadcastInDim ⟨3, ![32, 1, 256]⟩ ![0, 2] h x (ix3 b u c) = x (ix2 b c) :=
  broadcastInDim_apply _ h x _ _ fun a => match a with | ⟨0, _⟩ => rfl | ⟨1, _⟩ => rfl

/-- The unit branch axis copied to both branches. -/
theorem spread_mid_apply (x : (⟨3, ![32, 1, 256]⟩ : Shape).Idx → α)
    (h : (⟨3, ![32, 1, 256]⟩ : Shape).BroadcastsInDim ⟨3, ![32, 2, 256]⟩ ![0, 1, 2]) (b : Fin 32) (k : Fin 2) (c : Fin 256) :
    broadcastInDim ⟨3, ![32, 2, 256]⟩ ![0, 1, 2] h x (ix3 b k c) = x (ix3 b (0 : Fin 1) c) :=
  broadcastInDim_apply _ h x _ _ fun a => match a with | ⟨0, _⟩ => rfl | ⟨1, _⟩ => rfl | ⟨2, _⟩ => rfl

end layout

/-! ## Reductions over an axis of extent two -/

/-- The source index over (u, w) with k on the leading axis. -/
theorem lift_first {A B C : ℕ} (h : (⟨3, ![A, B, C]⟩ : Shape).Reduces [(0 : Fin 3)] ⟨2, ![B, C]⟩)
    (u : Fin B) (w : Fin C) (k : Fin A) : h.lift (ix2 u w) k = ix3 k u w :=
  funext fun c => Fin.ext (by match c with | ⟨0, _⟩ => rfl | ⟨1, _⟩ => rfl | ⟨2, _⟩ => rfl)

/-- The word 0xFF800000 is −∞. -/
theorem ofBits_neg_inf_f32 : Ideal.ofBits .f32 0xFF800000#32 = (⊥ : EReal) := by
  simp [Ideal.ofBits, Ideal.ieee]

/-- A fold of max over two terms. -/
theorem fold_max_two (e : EReal) (f : Fin 2 → EReal) :
    (Finset.univ : Finset (Fin 2)).fold max e f = max (f 0) (max (f 1) e) := by
  rw [show (Finset.univ : Finset (Fin 2)) = insert (0 : Fin 2) {1} from by decide,
    Finset.fold_insert (by decide), Finset.fold_singleton]

/-- The two halves of [2, 8192, 1] added from zero: at row r the sum over the leading coordinate. -/
theorem halves_sum_apply (x : FVec Ideal ⟨3, ![2, 8192, 1]⟩ .f32)
    (h' : (⟨3, ![2, 8192, 1]⟩ : Shape).ReducesTo [(0 : Fin 3)] ⟨2, ![8192, 1]⟩)
    (hu : 0 < (⟨0, ![]⟩ : Shape).numel) (r : Fin 8192) (z : Fin 1) :
    Host.reduceAdd x (constant (F := Ideal) ⟨0, ![]⟩ .f32 0x00000000#32) h' hu (ix2 r z)
      = ∑ k : Fin 2, x (ix3 k r z) := by
  have h : (⟨3, ![2, 8192, 1]⟩ : Shape).Reduces [(0 : Fin 3)] ⟨2, ![8192, 1]⟩ := by decide
  rw [hostReduceAdd_apply, Ideal.hostReduceAdd_single h' h]
  show Ideal.ofBits .f32 0x00000000#32 + _ = _
  rw [Ideal.ofBits_zero_f32, zero_add]
  exact Finset.sum_congr rfl fun k _ => congrArg x (lift_first h r z k)

/-- The two branches of [32, 2, 256] added from zero. -/
theorem branch_sum_apply (x : FVec Ideal ⟨3, ![32, 2, 256]⟩ .f32)
    (h' : (⟨3, ![32, 2, 256]⟩ : Shape).ReducesTo [(1 : Fin 3)] ⟨2, ![32, 256]⟩)
    (hu : 0 < (⟨0, ![]⟩ : Shape).numel) (b : Fin 32) (c : Fin 256) :
    Host.reduceAdd x (constant (F := Ideal) ⟨0, ![]⟩ .f32 0x00000000#32) h' hu (ix2 b c)
      = x (ix3 b (0 : Fin 2) c) + x (ix3 b (1 : Fin 2) c) := by
  have h : (⟨3, ![32, 2, 256]⟩ : Shape).Reduces [(1 : Fin 3)] ⟨2, ![32, 256]⟩ := by decide
  rw [hostReduceAdd_apply, Ideal.hostReduceAdd_single h' h]
  show Ideal.ofBits .f32 0x00000000#32 + _ = _
  rw [Ideal.ofBits_zero_f32, zero_add]
  refine (Finset.sum_congr rfl fun k _ => congrArg x (Cert.StackReduce.lift_mid h b c k)).trans ?_
  exact Fin.sum_univ_two _

/-- The larger of the two branches of [32, 2, 256], from −∞. -/
theorem branch_max_apply (x : FVec Ideal ⟨3, ![32, 2, 256]⟩ .f32)
    (h' : (⟨3, ![32, 2, 256]⟩ : Shape).ReducesTo [(1 : Fin 3)] ⟨2, ![32, 256]⟩)
    (hu : 0 < (⟨0, ![]⟩ : Shape).numel) (b : Fin 32) (c : Fin 256) :
    Host.reduce FloatOps.maximumf x (constant (F := Ideal) ⟨0, ![]⟩ .f32 0xFF800000#32) h' hu (ix2 b c)
      = max (x (ix3 b (0 : Fin 2) c)) (x (ix3 b (1 : Fin 2) c)) := by
  have h : (⟨3, ![32, 2, 256]⟩ : Shape).Reduces [(1 : Fin 3)] ⟨2, ![32, 256]⟩ := by decide
  rw [Host.reduce_eq_fold_single FloatOps.maximumf x _ h' h hu]
  have hf : (x ∘ h.lift (ix2 b c)) = fun k : Fin 2 => x (ix3 b k c) :=
    funext fun k => congrArg x (Cert.StackReduce.lift_mid h b c k)
  refine (congrArg (fun f => Finset.fold max (Ideal.ofBits .f32 0xFF800000#32) f (Finset.univ : Finset (Fin 2))) hf).trans ?_
  rw [fold_max_two, ofBits_neg_inf_f32, max_bot_right]

end Cert.RefChain

end
-- ==== Proof.RefChainStages.lean ====
/- The reference's host arithmetic between its two passes, cut into six stages, each read at explicit
   coordinates: the pooled vector (the two half sums of a row added and scaled by 2⁻¹⁰), the hidden layer (a matrix
   product and a maximum against zero), the 512 logits (a second product), their split into two branches of 256,
   the two-way softmax over the branches shifted by the larger logit, and the weights laid out branch-major over
   the 8192 rows. -/
import proofs.«169458_g2000706281692390_pallasbulk_37_19_alg».proof.Proof.RefChainDot
import proofs.«169458_g2000706281692390_pallasbulk_37_19_alg».proof.Proof.RefChainLayout

set_option maxRecDepth 16384

noncomputable section

namespace Cert.RefChain

open Idealize.ShloMosaic Idealize.ShloMosaic.ValueIdx
open Cert.ReferenceIdeal
open Cert.ReferenceIdeal.Facts₀
open Cert.Spec

/-! ## The stages -/

/-- The pooled vector: the two halves added, as [32, 256], times the scale. -/
def pooled (P : FVec Ideal S2x8192x1 .f32) : FVec Ideal S32x256 .f32 :=
  mulf (shapeCast S32x256 (Host.reduceAdd P (constant S_ .f32 0x00000000#32) reducesTo_S2x8192x1_S8192x1_d0 h_S_) shapeCasts_S8192x1_S32x256)
    (broadcastInDim S32x256 ![] bcast_S_S32x256 (constant S_ .f32 0x3A800000#32))

/-- The hidden layer: the first product, and a maximum against zero. -/
def hidden (v : FVec Ideal S32x256 .f32) (W1 : FVec Ideal S256x32 .f32) : FVec Ideal S32x32 .f32 :=
  maximumf (Host.dotGeneral dot_S32x256_S256x32_S32x32_1_0_0_1_n_n none v W1)
    (broadcastInDim S32x32 ![] bcast_S_S32x32 (constant S_ .f32 0x00000000#32))

/-- The logits: the second product. -/
def logits (v : FVec Ideal S32x32 .f32) (W2 : FVec Ideal S32x512 .f32) : FVec Ideal S32x512 .f32 :=
  Host.dotGeneral dot_S32x32_S32x512_S32x512_1_0_0_1_n_n none v W2

/-- The 512 columns as two branches of 256. -/
def branches (v : FVec Ideal S32x512 .f32) : FVec Ideal S32x2x256 .f32 :=
  shapeCast S32x2x256 v shapeCasts_S32x512_S32x2x256

/-- The larger of the two branches, copied to both. -/
def shift (v : FVec Ideal S32x2x256 .f32) : FVec Ideal S32x2x256 .f32 :=
  broadcastInDim S32x2x256 ![0, 1, 2] bcast_S32x1x256_S32x2x256_0_1_2
    (broadcastInDim S32x1x256 ![0, 2] bcast_S32x256_S32x1x256_0_2
      (maximumf (broadcastInDim S32x256 ![] bcast_S_S32x256 (constant S_ .f32 0xFF800000#32))
        (Host.reduce FloatOps.maximumf v (constant S_ .f32 0xFF800000#32) reducesTo_S32x2x256_S32x256_d1 h_S_)))

/-- The exponentials of the shifted logits. -/
def expo (v : FVec Ideal S32x2x256 .f32) : FVec Ideal S32x2x256 .f32 :=
  Host.exp (subf v (shift v))

/-- The sum of the two branches, copied to both. -/
def total (v : FVec Ideal S32x2x256 .f32) : FVec Ideal S32x2x256 .f32 :=
  broadcastInDim S32x2x256 ![0, 1, 2] bcast_S32x1x256_S32x2x256_0_1_2
    (broadcastInDim S32x1x256 ![0, 2] bcast_S32x256_S32x1x256_0_2
      (Host.reduceAdd v (constant S_ .f32 0x00000000#32) reducesTo_S32x2x256_S32x256_d1 h_S_))

/-- The softmax over the two branches. -/
def weights (v : FVec Ideal S32x2x256 .f32) : FVec Ideal S32x2x256 .f32 :=
  Host.divf (expo v) (total (expo v))

/-- Branch-major over the 8192 rows. -/
def laidOut (v : FVec Ideal S32x2x256 .f32) : FVec Ideal S2x8192x1 .f32 :=
  shapeCast S2x8192x1 (transpose S2x32x256 [1, 0, 2] v transposes_S32x2x256_S2x32x256_1_0_2) shapeCasts_S2x32x256_S2x8192x1

/-! ## Each stage at coordinates -/

theorem pooled_apply (P : FVec Ideal S2x8192x1 .f32) (b : Fin 32) (c : Fin 256) :
    pooled P (ix2 b c) = rpool P b c := by
  unfold pooled
  rw [mulf_apply, reshape_rows_apply, halves_sum_apply, broadcastInDim_scalar_apply]
  rfl

theorem hidden_apply (v : FVec Ideal S32x256 .f32) (W1 : FVec Ideal S256x32 .f32) (b j : Fin 32) :
    hidden v W1 (ix2 b j) = hid (fun b c => v (ix2 b c)) W1 b j := by
  unfold hidden
  rw [maximumf_apply, dotA_apply, broadcastInDim_scalar_apply, constant_apply, Ideal.ofBits_zero_f32]
  rfl

theorem logits_apply (v : FVec Ideal S32x32 .f32) (W2 : FVec Ideal S32x512 .f32) (b : Fin 32) (n : Fin 512) :
    logits v W2 (ix2 b n) = ∑ j : Fin 32, v (ix2 b j) * W2 (ix2 j n) :=
  dotB_apply v W2 b n

theorem branches_apply (v : FVec Ideal S32x512 .f32) (b : Fin 32) (k : Fin 2) (c : Fin 256) :
    branches v (ix3 b k c) = v (ix2 b (col k c)) :=
  reshape_branches_apply v _ b k c

theorem shift_apply (v : FVec Ideal S32x2x256 .f32) (b : Fin 32) (k : Fin 2) (c : Fin 256) :
    shift v (ix3 b k c) = max (v (ix3 b (0 : Fin 2) c)) (v (ix3 b (1 : Fin 2) c)) := by
  unfold shift
  rw [spread_mid_apply, keep_mid_apply, maximumf_apply, broadcastInDim_scalar_apply, constant_apply, branch_max_apply,
    ofBits_neg_inf_f32, max_bot_left]

theorem expo_apply (v : FVec Ideal S32x2x256 .f32) (b : Fin 32) (k : Fin 2) (c : Fin 256) :
    expo v (ix3 b k c)
      = Ideal.exp (v (ix3 b k c) - max (v (ix3 b (0 : Fin 2) c)) (v (ix3 b (1 : Fin 2) c))) := by
  unfold expo
  show FloatOps.hostUnary .exp (subf v (shift v) (ix3 b k c)) = _
  rw [Ideal.hostUnary_exp_def, subf_apply, shift_apply]

theorem total_apply (v : FVec Ideal S32x2x256 .f32) (b : Fin 32) (k : Fin 2) (c : Fin 256) :
    total v (ix3 b k c) = v (ix3 b (0 : Fin 2) c) + v (ix3 b (1 : Fin 2) c) := by
  unfold total
  rw [spread_mid_apply, keep_mid_apply, branch_sum_apply]

theorem weights_apply (v : FVec Ideal S32x2x256 .f32) (b : Fin 32) (k : Fin 2) (c : Fin 256) :
    weights v (ix3 b k c)
      = Ideal.div (Ideal.exp (v (ix3 b k c) - max (v (ix3 b (0 : Fin 2) c)) (v (ix3 b (1 : Fin 2) c))))
          (Ideal.exp (v (ix3 b (0 : Fin 2) c) - max (v (ix3 b (0 : Fin 2) c)) (v (ix3 b (1 : Fin 2) c)))
            + Ideal.exp (v (ix3 b (1 : Fin 2) c) - max (v (ix3 b (0 : Fin 2) c)) (v (ix3 b (1 : Fin 2) c)))) := by
  unfold weights
  rw [hostDivf_apply, total_apply, expo_apply, expo_apply, expo_apply]

theorem laidOut_apply (v : FVec Ideal S32x2x256 .f32) (k : Fin 2) (r : Fin 8192) (z : Fin 1) :
    laidOut v (ix3 k r z) = v (ix3 (rowB r) k (rowC r)) := by
  unfold laidOut
  rw [reshape_flat_apply, transpose_branch_apply]

/-! ## The logits of the chain are the perceptron's -/

theorem logits_chain (P : FVec Ideal S2x8192x1 .f32) (W1 : FVec Ideal S256x32 .f32) (W2 : FVec Ideal S32x512 .f32)
    (b : Fin 32) (n : Fin 512) :
    logits (hidden (pooled P) W1) W2 (ix2 b n) = logit (rpool P) W1 W2 b n := by
  have hp : (fun b c => pooled P (ix2 b c)) = rpool P := funext fun b => funext fun c => pooled_apply P b c
  rw [logits_apply]
  unfold logit
  refine Finset.sum_congr rfl fun j _ => ?_
  rw [hidden_apply, hp]

end Cert.RefChain

end
-- ==== Proof.RefChain.lean ====
/- The reference's host arithmetic between its two passes, as one function: from the two half sums of every row
   and the two weight matrices to the softmax weights, as a [2, 8192, 1] array. -/
import proofs.«169458_g2000706281692390_pallasbulk_37_19_alg».proof.Proof.Gen.ReferenceIdeal
import proofs.«169458_g2000706281692390_pallasbulk_37_19_alg».proof.Proof.Spec
import proofs.«169458_g2000706281692390_pallasbulk_37_19_alg».proof.Proof.RefChainStages
import Idealize.ShloMosaic.PureOps.Ideal.Laws

set_option maxRecDepth 16384

noncomputable section

namespace Cert.RefChain

open Idealize.ShloMosaic Idealize.ShloMosaic.ValueIdx
open Cert.ReferenceIdeal
open Cert.ReferenceIdeal.Facts₀

/-- The host operations between the two passes, composed: halves added, scaled by 2⁻¹⁰, the two matrix products
    with a maximum against zero between, the 512 logits split into two branches, the softmax over the branches
    (shifted by the branch maximum), and the weights laid out branch-major over the 8192 rows. -/
def chain (P : FVec Ideal S2x8192x1 .f32) (W1 : FVec Ideal S256x32 .f32) (W2 : FVec Ideal S32x512 .f32) : FVec Ideal S2x8192x1 .f32 :=
  have v3 : FVec Ideal S8192x1 .f32 := Host.reduceAdd P (constant S_ .f32 0x00000000#32) reducesTo_S2x8192x1_S8192x1_d0 h_S_
  have v4 : FVec Ideal S32x256 .f32 := shapeCast S32x256 v3 shapeCasts_S8192x1_S32x256
  have v5 : FVec Ideal S32x256 .f32 := broadcastInDim S32x256 ![] bcast_S_S32x256 (constant S_ .f32 0x3A800000#32)
  have v6 : FVec Ideal S32x256 .f32 := mulf v4 v5
  have v7 : FVec Ideal S32x32 .f32 := Host.dotGeneral dot_S32x256_S256x32_S32x32_1_0_0_1_n_n none v6 W1
  have v8 : FVec Ideal S32x32 .f32 := broadcastInDim S32x32 ![] bcast_S_S32x32 (constant S_ .f32 0x00000000#32)
  have v9 : FVec Ideal S32x32 .f32 := maximumf v7 v8
  have v10 : FVec Ideal S32x512 .f32 := Host.dotGeneral dot_S32x32_S32x512_S32x512_1_0_0_1_n_n none v9 W2
  have v11 : FVec Ideal S32x2x256 .f32 := shapeCast S32x2x256 v10 shapeCasts_S32x512_S32x2x256
  have v12 : FVec Ideal S32x256 .f32 := Host.reduce FloatOps.maximumf v11 (constant S_ .f32 0xFF800000#32) reducesTo_S32x2x256_S32x256_d1 h_S_
  have v13 : FVec Ideal S32x256 .f32 := broadcastInDim S32x256 ![] bcast_S_S32x256 (constant S_ .f32 0xFF800000#32)
  have v14 : FVec Ideal S32x256 .f32 := maximumf v13 v12
  have v15 : FVec Ideal S32x1x256 .f32 := broadcastInDim S32x1x256 ![0, 2] bcast_S32x256_S32x1x256_0_2 v14
  have v16 : FVec Ideal S32x2x256 .f32 := broadcastInDim S32x2x256 ![0, 1, 2] bcast_S32x1x256_S32x2x256_0_1_2 v15
  have v17 : FVec Ideal S32x2x256 .f32 := subf v11 v16
  have v18 : FVec Ideal S32x2x256 .f32 := Host.exp v17
  have v19 : FVec Ideal S32x256 .f32 := Host.reduceAdd v18 (constant S_ .f32 0x00000000#32) reducesTo_S32x2x256_S32x256_d1 h_S_
  have v20 : FVec Ideal S32x1x256 .f32 := broadcastInDim S32x1x256 ![0, 2] bcast_S32x256_S32x1x256_0_2 v19
  have v21 : FVec Ideal S32x2x256 .f32 := broadcastInDim S32x2x256 ![0, 1, 2] bcast_S32x1x256_S32x2x256_0_1_2 v20
  have v22 : FVec Ideal S32x2x256 .f32 := Host.divf v18 v21
  have v23 : FVec Ideal S2x32x256 .f32 := transpose S2x32x256 [1, 0, 2] v22 transposes_S32x2x256_S2x32x256_1_0_2
  shapeCast S2x8192x1 v23 shapeCasts_S2x32x256_S2x8192x1

/-- The chain is its six stages composed: pooled vector, hidden layer, logits, the split into two branches, the softmax
    over the branches, and the branch-major layout over the rows. -/
theorem chain_stages (P : FVec Ideal S2x8192x1 .f32) (W1 : FVec Ideal S256x32 .f32) (W2 : FVec Ideal S32x512 .f32) :
    chain P W1 W2 = laidOut (weights (branches (logits (hidden (pooled P) W1) W2))) := rfl

/-- Read at (k, r, 0) the chain is branch k's softmax weight of row r's (batch, channel), over the logits the
    perceptron gives the scaled sum of the two halves. -/
theorem chain_eq (P : FVec Ideal S2x8192x1 .f32) (W1 : FVec Ideal S256x32 .f32) (W2 : FVec Ideal S32x512 .f32) :
    chain P W1 W2 = Cert.Spec.attn (Cert.Spec.logit (Cert.Spec.rpool P) W1 W2) := by
  funext i
  obtain ⟨k, r, z, rfl⟩ : ∃ (k : Fin 2) (r : Fin 8192) (z : Fin 1), i = ix3 k r z := ⟨i 0, i 1, i 2, eq_ix3 i⟩
  rw [chain_stages, laidOut_apply, weights_apply]
  simp only [branches_apply, logits_chain]
  rfl

end Cert.RefChain

end
-- ==== Proof.RefRunSeg.lean ====
/- The reference's run, with its result buffer kept in the post: every weakly fair execution of @main ends with the
   result buffer at the last segment boundary's contents, and the four argument arrays as launched. -/
import proofs.«169458_g2000706281692390_pallasbulk_37_19_alg».proof.Proof.Gen.ReferenceIdeal.Frame

set_option maxRecDepth 16384

noncomputable section

namespace Cert.RefRunSeg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters, every weakly fair execution of @main on the TensorCores terminates, nothing
    faulting; in every final state the result buffer holds what the fold through @main's five segments leaves in it
    (the contents `W5` at the last boundary), and the argument arrays are as launched. The final state is read
    against the last thread state, which holds every unscoped buffer at `W5`; the result buffer is one of them. -/
theorem run_W5 : θ_run defs (onTc (τ := τ) (main (F := F))) ⟨m, fun _ => 0, ρ⟩ (fun r => ∀ c : Dev nD,
      r.2.mem ((c.tc : Thread nD τ).loc main_v26) = W5 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v26 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.RefRunSeg

end
-- ==== Proof.RefHostChain.lean ====
/- The reference's host arithmetic between its two passes, read off the run: what the 28 host operations leave in the
   weight buffer is one function of three buffers as the stretch finds them: the first pass's [2, 8192, 1] half sums and
   the two weight matrices. -/
import proofs.«169458_g2000706281692390_pallasbulk_37_19_alg».proof.Proof.Gen.ReferenceIdeal.Frame
import proofs.«169458_g2000706281692390_pallasbulk_37_19_alg».proof.Proof.RefChain

set_option maxRecDepth 16384

noncomputable section

namespace Cert.RefHostChain

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen

/-- From any buffer contents `V`, the second host stretch leaves in the weight buffer the composed function of the
    contents of the half-sum buffer and the two weight matrices' buffers: each operation's result buffer holds its
    function of its operands' buffers, and no operation of the stretch writes one of the three. -/
theorem after_hostOps1_v24 (V : Valuation τ sig (Elt Ideal)) :
    StableHlo.after (hostOps1 (F := Ideal)) V (Proc.devRef .tc main_v24)
      = Cert.RefChain.chain (V (Proc.devRef .tc main_v2)) (V (Proc.devRef .tc main_arg2)) (V (Proc.devRef .tc main_arg3)) := by
  after_results_simp
  rfl

end Cert.RefHostChain

end
-- ==== Proof.RefRunIdx.lean ====
/- The two reshapes at the ends of the reference, read at an index.

   The first flattens a [32, 256, 32, 32] feature map to [8192, 1024]: row-major positions agree, so entry (r, q) of
   the flattened map is the map's entry at batch r / 256, channel r % 256, height q / 32, width q % 32.
   The last goes back: entry (b, c, h, w) of the result is entry (b·256 + c, h·32 + w) of the [8192, 1024] weighted
   sum, whose row weights are the two softmax weights of (b, c); that is the reference's closed form. -/
import proofs.«169458_g2000706281692390_pallasbulk_37_19_alg».proof.Proof.Spec
import Idealize.ShloMosaic.Lib.Pipeline.Value

set_option maxRecDepth 16384

noncomputable section

namespace Cert.RefRunIdx

open Idealize.ShloMosaic Idealize.ShloMosaic.ValueIdx
open Cert.Spec

/-! ## Row and pixel numbers -/

/-- Row b·256 + c is batch b. -/
theorem rowB_row (b : Fin 32) (c : Fin 256) : rowB (row b c) = b :=
  Fin.ext (by have := c.isLt; show (b.val * 256 + c.val) / 256 = b.val; omega)
/-- Row b·256 + c is channel c. -/
theorem rowC_row (b : Fin 32) (c : Fin 256) : rowC (row b c) = c :=
  Fin.ext (by have := c.isLt; show (b.val * 256 + c.val) % 256 = c.val; omega)
/-- Pixel h·32 + w is at height h. -/
theorem pixH_pix (h w : Fin 32) : pixH (pix h w) = h :=
  Fin.ext (by have := w.isLt; show (h.val * 32 + w.val) / 32 = h.val; omega)
/-- Pixel h·32 + w is at width w. -/
theorem pixW_pix (h w : Fin 32) : pixW (pix h w) = w :=
  Fin.ext (by have := w.isLt; show (h.val * 32 + w.val) % 32 = w.val; omega)

/-! ## The flattening reshape -/

/-- The reshape [32, 256, 32, 32] → [8192, 1024] of a feature map is the flattened map: the entry at (r, q) and the
    entry at (r / 256, r % 256, q / 32, q % 32) have the same row-major position, r·1024 + q. -/
theorem shapeCast_flat {α : Type} (X : SFeat.Idx → α) (hc : SFeat.ShapeCasts SFlat) (i : SFlat.Idx) :
    shapeCast SFlat X hc i = X (ix4 (rowB (i 0)) (rowC (i 0)) (pixH (i 1)) (pixW (i 1))) := by
  refine shapeCast_apply X hc i _ ?_
  rw [Shape.rowMajor_val_four, Shape.rowMajor_val_two]
  have h0 : (i 0).val < 8192 := (i 0).isLt
  have h1 : (i 1).val < 1024 := (i 1).isLt
  show ((((i 0).val / 256) * 256 + (i 0).val % 256) * 32 + (i 1).val / 32) * 32 + (i 1).val % 32 = (i 0).val * 1024 + (i 1).val
  omega

/-- As arrays: the reshape of a map is `Spec.flat` of it. -/
theorem shapeCast_eq_flat (X : SFeat.Idx → EReal) (hc : SFeat.ShapeCasts SFlat) : shapeCast SFlat X hc = flat X :=
  funext fun i => shapeCast_flat X hc i

/-! ## The reshape back, over the weighted sum -/

/-- The flattened map at row (b, c), pixel (h, w) is the map at (b, c, h, w). -/
theorem flat_row_pix (X : SFeat.Idx → EReal) (b : Fin 32) (c : Fin 256) (h w : Fin 32) :
    flat X (ix2 (row b c) (pix h w)) = X (ix4 b c h w) := by
  show X (ix4 (rowB (row b c)) (rowC (row b c)) (pixH (pix h w)) (pixW (pix h w))) = _
  rw [rowB_row, rowC_row, pixH_pix, pixW_pix]

/-- The weight array at (k, row (b, c), 0) is branch k's softmax weight of (b, c). -/
theorem attn_row (L : Fin 32 → Fin 512 → EReal) (k : Fin 2) (b : Fin 32) (c : Fin 256) :
    attn L (ix3 k (row b c) (0 : Fin 1)) = attnc L k b c := by
  show attnc L k (rowB (row b c)) (rowC (row b c)) = _
  rw [rowB_row, rowC_row]

/-- The weighted sum of the flattened maps at row (b, c), pixel (h, w): x₀·a₀ + x₁·a₁ at (b, c, h, w). -/
theorem wsum_row_pix (L : Fin 32 → Fin 512 → EReal) (X0 X1 : SFeat.Idx → EReal) (b : Fin 32) (c : Fin 256) (h w : Fin 32) :
    wsum (attn L) (flat X0) (flat X1) (ix2 (row b c) (pix h w))
      = X0 (ix4 b c h w) * attnc L 0 b c + X1 (ix4 b c h w) * attnc L 1 b c := by
  show flat X0 (ix2 (row b c) (pix h w)) * attn L (ix3 (0 : Fin 2) (row b c) (0 : Fin 1))
      + flat X1 (ix2 (row b c) (pix h w)) * attn L (ix3 (1 : Fin 2) (row b c) (0 : Fin 1)) = _
  rw [flat_row_pix, flat_row_pix, attn_row, attn_row]

/-- The reshape [8192, 1024] → [32, 256, 32, 32] of any array, at (b, c, h, w), is the array at row b·256 + c,
    pixel h·32 + w: both have row-major position ((b·256 + c)·32 + h)·32 + w. -/
theorem shapeCast_unflat {α : Type} (Y : SFlat.Idx → α) (hc : SFlat.ShapeCasts SFeat) (b : Fin 32) (c : Fin 256) (h w : Fin 32) :
    shapeCast SFeat Y hc (ix4 b c h w) = Y (ix2 (row b c) (pix h w)) := by
  refine shapeCast_apply Y hc _ _ ?_
  rw [Shape.rowMajor_val_four, Shape.rowMajor_val_two]
  show (b.val * 256 + c.val) * 1024 + (h.val * 32 + w.val) = ((b.val * 256 + c.val) * 32 + h.val) * 32 + w.val
  omega

/-- The reference's two passes and the perceptron between them, put together: the weighted sum of the flattened
    maps under the softmax weights of the logits of the pooled half sums, reshaped back to [32, 256, 32, 32], is the
    reference's closed form. -/
theorem unflat_wsum_eq_REF (X0 X1 : SFeat.Idx → EReal) (W1 : SW1.Idx → EReal) (W2 : SW2.Idx → EReal)
    (hc : SFlat.ShapeCasts SFeat) :
    shapeCast SFeat (wsum (attn (logit (rpool (partialSum (flat X0) (flat X1))) W1 W2)) (flat X0) (flat X1)) hc
      = REF X0 X1 W1 W2 := by
  funext i
  obtain ⟨b, c, h, w, rfl⟩ : ∃ (b : Fin 32) (c : Fin 256) (h w : Fin 32), i = ix4 b c h w :=
    ⟨i 0, i 1, i 2, i 3, eq_ix4 i⟩
  rw [shapeCast_unflat, wsum_row_pix]
  rfl

end Cert.RefRunIdx

end
-- ==== Proof.RefRunWalk.lean ====
/- The walk of the buffer contents through @main's five segments, for the reference's result buffer.

   The result buffer is written by the last host operation, a reshape of the second pass's output array. That array is
   the weighted sum of the second pass's three inputs as the pass finds them: the weight buffer, which the second host
   stretch computes from the first pass's output and the two weight matrices, and the two flattened maps, which the
   first host stretch wrote as reshapes of the two feature-map arguments and nothing later writes. -/
import proofs.«169458_g2000706281692390_pallasbulk_37_19_alg».proof.Proof.Gen.ReferenceIdeal.Frame
import proofs.«169458_g2000706281692390_pallasbulk_37_19_alg».proof.Proof.Spec
import proofs.«169458_g2000706281692390_pallasbulk_37_19_alg».proof.Proof.Pool
import proofs.«169458_g2000706281692390_pallasbulk_37_19_alg».proof.Proof.Wsum
import proofs.«169458_g2000706281692390_pallasbulk_37_19_alg».proof.Proof.RefChain
import proofs.«169458_g2000706281692390_pallasbulk_37_19_alg».proof.Proof.RefHostChain
import proofs.«169458_g2000706281692390_pallasbulk_37_19_alg».proof.Proof.RefRunIdx

set_option maxRecDepth 16384

noncomputable section

namespace Cert.RefRunWalk

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen

variable (m : (ℓ : Loc nD τ sig) → Buf (Elt Ideal) ℓ) (ρ : Dev nD → PrngReg) (c : Dev nD)

/-! ## The first host stretch: the two flattening reshapes -/

/-- After the first stretch the first flattened-map buffer holds the reshape of the first argument. -/
theorem W1_v0 : W1 m ρ c (Proc.devRef .tc main_v0)
    = Cert.Spec.flat (m ((c : Thread nD τ).loc main_arg0)) := by
  rw [← Cert.RefRunIdx.shapeCast_eq_flat _ Facts₀.shapeCasts_S32x256x32x32_S8192x1024]
  show StableHlo.after hostOps0 _ (Proc.devRef .tc main_v0) = _
  after_results
  rfl

/-- After the first stretch the second flattened-map buffer holds the reshape of the second argument. -/
theorem W1_v1 : W1 m ρ c (Proc.devRef .tc main_v1)
    = Cert.Spec.flat (m ((c : Thread nD τ).loc main_arg1)) := by
  rw [← Cert.RefRunIdx.shapeCast_eq_flat _ Facts₀.shapeCasts_S32x256x32x32_S8192x1024]
  show StableHlo.after hostOps0 _ (Proc.devRef .tc main_v1) = _
  after_results
  rfl

/-- The first stretch writes neither weight matrix. -/
theorem W1_arg2 : W1 m ρ c (Proc.devRef .tc main_arg2) = m ((c : Thread nD τ).loc main_arg2) :=
  (StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W1_arg3 : W1 m ρ c (Proc.devRef .tc main_arg3) = m ((c : Thread nD τ).loc main_arg3) :=
  (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-! ## The first pass: its two inputs end as entered, its output at the half sums -/

/-- An input window's array is never written back: the first flattened map leaves the first pass as it entered. -/
theorem W2_v0 : W2 m ρ c (Proc.devRef .tc main_v0) = W1 m ρ c (Proc.devRef .tc main_v0) :=
  (W2_arr m ρ c 0).trans (((dat0 (V1 m ρ) c).arrAt_in 0 rfl cfg0.N).trans (A_eq0 (V1 m ρ) c 0))
theorem W2_v1 : W2 m ρ c (Proc.devRef .tc main_v1) = W1 m ρ c (Proc.devRef .tc main_v1) :=
  (W2_arr m ρ c 1).trans (((dat0 (V1 m ρ) c).arrAt_in 1 rfl cfg0.N).trans (A_eq0 (V1 m ρ) c 1))

/-- The first pass's output array: the half sums of the two flattened maps. -/
theorem W2_v2 : W2 m ρ c (Proc.devRef .tc main_v2)
    = Cert.Spec.partialSum (Cert.Spec.flat (m ((c : Thread nD τ).loc main_arg0))) (Cert.Spec.flat (m ((c : Thread nD τ).loc main_arg1))) := by
  refine (W2_arr m ρ c 2).trans ((Cert.RefPool.pool_final (V1 m ρ) c).trans ?_)
  show Cert.Spec.partialSum (W1 m ρ c (Proc.devRef .tc main_v0)) (W1 m ρ c (Proc.devRef .tc main_v1)) = _
  rw [W1_v0, W1_v1]

/-- The first pass has no window on a weight matrix. -/
theorem W2_arg2 : W2 m ρ c (Proc.devRef .tc main_arg2) = m ((c : Thread nD τ).loc main_arg2) :=
  (W2_of_ne m ρ c main_arg2 (by decide)).trans (W1_arg2 m ρ c)
theorem W2_arg3 : W2 m ρ c (Proc.devRef .tc main_arg3) = m ((c : Thread nD τ).loc main_arg3) :=
  (W2_of_ne m ρ c main_arg3 (by decide)).trans (W1_arg3 m ρ c)

/-! ## The second host stretch: the softmax weights; the flattened maps untouched -/

/-- The weight buffer as the second pass finds it: the softmax weights of the logits the perceptron gives the pooled
    half sums. -/
theorem W3_v24 : W3 m ρ c (Proc.devRef .tc main_v24)
    = Cert.Spec.attn (Cert.Spec.logit (Cert.Spec.rpool
        (Cert.Spec.partialSum (Cert.Spec.flat (m ((c : Thread nD τ).loc main_arg0))) (Cert.Spec.flat (m ((c : Thread nD τ).loc main_arg1)))))
        (m ((c : Thread nD τ).loc main_arg2)) (m ((c : Thread nD τ).loc main_arg3))) := by
  refine (Cert.RefHostChain.after_hostOps1_v24 (W2 m ρ c)).trans ?_
  rw [W2_v2, W2_arg2, W2_arg3, Cert.RefChain.chain_eq]

/-- The second stretch writes neither flattened map. -/
theorem W3_v0 : W3 m ρ c (Proc.devRef .tc main_v0) = Cert.Spec.flat (m ((c : Thread nD τ).loc main_arg0)) :=
  (StableHlo.after_of_forall_not_mem (b := Proc.devRef .tc main_v0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W2_v0 m ρ c).trans (W1_v0 m ρ c))
theorem W3_v1 : W3 m ρ c (Proc.devRef .tc main_v1) = Cert.Spec.flat (m ((c : Thread nD τ).loc main_arg1)) :=
  (StableHlo.after_of_forall_not_mem (b := Proc.devRef .tc main_v1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans ((W2_v1 m ρ c).trans (W1_v1 m ρ c))

/-! ## The second pass and the last reshape -/

/-- The second pass's output array: the weighted sum of the flattened maps. -/
theorem W4_v25 : W4 m ρ c (Proc.devRef .tc main_v25)
    = Cert.Spec.wsum (Cert.Spec.attn (Cert.Spec.logit (Cert.Spec.rpool
        (Cert.Spec.partialSum (Cert.Spec.flat (m ((c : Thread nD τ).loc main_arg0))) (Cert.Spec.flat (m ((c : Thread nD τ).loc main_arg1)))))
        (m ((c : Thread nD τ).loc main_arg2)) (m ((c : Thread nD τ).loc main_arg3))))
      (Cert.Spec.flat (m ((c : Thread nD τ).loc main_arg0))) (Cert.Spec.flat (m ((c : Thread nD τ).loc main_arg1))) := by
  refine (W4_arr m ρ c 3).trans ((Cert.RefWsum.wsum_final (V3 m ρ) c).trans ?_)
  show Cert.Spec.wsum (W3 m ρ c (Proc.devRef .tc main_v24)) (W3 m ρ c (Proc.devRef .tc main_v0)) (W3 m ρ c (Proc.devRef .tc main_v1)) = _
  rw [W3_v24, W3_v0, W3_v1]

/-- The result buffer at the last boundary: the reshape back of the second pass's output, which is the reference's
    closed form of the four arguments. -/
theorem W5_v26 : W5 m ρ c (Proc.devRef .tc main_v26)
    = Cert.Spec.REF (m ((c : Thread nD τ).loc main_arg0)) (m ((c : Thread nD τ).loc main_arg1))
        (m ((c : Thread nD τ).loc main_arg2)) (m ((c : Thread nD τ).loc main_arg3)) := by
  rw [← Cert.RefRunIdx.unflat_wsum_eq_REF _ _ _ _ Facts₀.shapeCasts_S8192x1024_S32x256x32x32, ← W4_v25 m ρ c]
  show StableHlo.after hostOps2 _ (Proc.devRef .tc main_v26) = _
  after_results
  rfl

end Cert.RefRunWalk

end
-- ==== Proof.RefRun.lean ====
/- The reference's run: its result array is the reference's closed form of the argument arrays. -/
import proofs.«169458_g2000706281692390_pallasbulk_37_19_alg».proof.Proof.Gen.ReferenceIdeal.Frame
import proofs.«169458_g2000706281692390_pallasbulk_37_19_alg».proof.Proof.Spec
import proofs.«169458_g2000706281692390_pallasbulk_37_19_alg».proof.Proof.Pool
import proofs.«169458_g2000706281692390_pallasbulk_37_19_alg».proof.Proof.Wsum
import proofs.«169458_g2000706281692390_pallasbulk_37_19_alg».proof.Proof.RefChain
import proofs.«169458_g2000706281692390_pallasbulk_37_19_alg».proof.Proof.RefRunSeg
import proofs.«169458_g2000706281692390_pallasbulk_37_19_alg».proof.Proof.RefRunWalk
set_option maxRecDepth 16384

noncomputable section

namespace Cert.RefRun

open Idealize.ShloMosaic Idealize.ShloMosaic.TcCoe Idealize.ShloMosaic.ValueIdx
open Idealize.SL Idealize.SL.Sem
open Idealize.ShloMosaic.Pipeline (Dat Cfg Window)
open Cert.ReferenceIdeal Cert.ReferenceIdeal.Gen

/-- Every weakly fair execution of the reference ends with its result at the softmax form of the arguments,
    and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v26)
        = Cert.Spec.REF (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  -- the run leaves the result buffer at the last boundary's contents; the walk through the five segments reads those
  -- as the closed form of the arguments
  (θ_run (defs (F := Ideal)) _ _).mono
    (fun r h c => ⟨(h c).1.trans (Cert.RefRunWalk.W5_v26 m ρ c), (h c).2⟩)
    (Cert.RefRunSeg.run_W5 (F := Ideal) m ρ)

end Cert.RefRun

end
-- ==== Proof.LibIsReal.lean ====
/-
  Extended reals that are real numbers.

  On the extended reals the field laws (distributivity, cancelling, moving a factor across a sum) fail at the
  infinities, so a value proof that needs one first shows its operands are real. `IsReal a` says `a` is the image of a
  real number; it is closed under sums, differences, products, finite sums and quotients by a nonzero real, holds of
  every integer-valued float, and holds of every IEEE word whose exponent field is not all ones (a zero, a subnormal or
  a normal number: everything but the infinities and the NaN patterns). With operands real, an identity of the real
  field transfers by pushing the coercion out (`← EReal.coe_add`, `← EReal.coe_mul`, …) and `ring`.
-/
import Idealize.ShloMosaic.PureOps.Ideal

noncomputable section

namespace Cert

open Idealize.ShloMosaic

/-- `a` is a real number. -/
def IsReal (a : EReal) : Prop := ∃ r : ℝ, a = (r : EReal)

theorem IsReal.coe (r : ℝ) : IsReal (r : EReal) := ⟨r, rfl⟩
theorem IsReal.zero : IsReal 0 := ⟨0, rfl⟩
theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.sum {ι : Type} (s : Finset ι) (f : ι → EReal) (h : ∀ i, IsReal (f i)) : IsReal (∑ i ∈ s, f i) := by
  classical
  induction s using Finset.induction_on with
  | empty => simpa using IsReal.zero
  | insert a s ha ih => rw [Finset.sum_insert ha]; exact (h a).add ih
/-- A quotient by a nonzero real. -/
theorem IsReal.div {a : EReal} (ha : IsReal a) {y : ℝ} (hy : y ≠ 0) : IsReal (Ideal.div a (y : EReal)) := by
  rw [Ideal.div_coe hy]; exact ha.mul (IsReal.coe _)

/-- A word of an IEEE format with `e` exponent bits and `mm` fraction bits whose exponent field is not all ones denotes
    a real number (for a literal word the side condition is decided: `isReal_ieee 8 23 _ (by decide)`). -/
theorem isReal_ieee (e mm : Nat) {w : Nat} (b : BitVec w) (h : (b.extractLsb' mm e).toNat ≠ 2 ^ e - 1) :
    IsReal (Ideal.ieee e mm b) := by
  unfold Ideal.ieee
  simp only []
  rw [if_neg h]
  split <;> exact ⟨_, rfl⟩

end Cert

end
-- ==== Proof.Law.lean ====
/-
  The law that joins the two closed forms of selective-kernel fusion.

  Three facts. (1) The reference pools by summing 2·4 tiles of 128 pixels of both maps at once; the kernel pools each
  map over its 1024 pixels and adds. The tiles partition the pixels ((s, t, l) ↦ (4s + t)·128 + l is a bijection onto
  the 1024), and addition on the extended reals is commutative and associative, so the pooled vectors agree with no
  finiteness at all. (2) For real logits l₀, l₁ and real x₀, x₁, with M = max l₀ l₁ and a = e^(l₀−M), b = e^(l₁−M):
  b / a = e^(−(l₀−l₁)), so a/(a+b) is the logistic function of l₀ − l₁, b/(a+b) = 1 − a/(a+b), and
  x₀·a/(a+b) + x₁·b/(a+b) = x₁ + a/(a+b)·(x₀ − x₁). This is a field identity: it needs every operand real.
  (3) With real inputs the pooled vector, the hidden layer and the logits are real: sums, products and maxima of reals.
-/
import proofs.«169458_g2000706281692390_pallasbulk_37_19_alg».proof.Proof.Spec
import proofs.«169458_g2000706281692390_pallasbulk_37_19_alg».proof.Proof.LibIsReal

noncomputable section

namespace Cert.Spec

open Idealize.ShloMosaic Idealize.ShloMosaic.ValueIdx

/-! ## The tiles partition the pixels -/

/-- (half, tile, lane) ↔ pixel. -/
def tileEquiv : (Fin 2 × Fin 4) × Fin 128 ≃ Fin 1024 where
  toFun p := tileCol p.1.1 p.1.2 p.2
  invFun k := ((⟨k.val / 512, by have := k.isLt; omega⟩, ⟨k.val / 128 % 4, by omega⟩), ⟨k.val % 128, by omega⟩)
  left_inv p := by
    obtain ⟨⟨s, t⟩, l⟩ := p
    have hs := s.isLt; have ht := t.isLt; have hl := l.isLt
    refine Prod.ext (Prod.ext (Fin.ext ?_) (Fin.ext ?_)) (Fin.ext ?_) <;> simp only [tileCol] <;> omega
  right_inv k := by
    have hk := k.isLt
    refine Fin.ext ?_
    simp only [tileCol]
    omega

/-- A sum over halves, tiles and lanes is the sum over the pixels. -/
theorem sum_tiles {M : Type} [AddCommMonoid M] (g : Fin 1024 → M) :
    ∑ s : Fin 2, ∑ t : Fin 4, ∑ l : Fin 128, g (tileCol s t l) = ∑ k : Fin 1024, g k := by
  have h1 : ∑ p : (Fin 2 × Fin 4) × Fin 128, g (tileEquiv p) = ∑ s : Fin 2, ∑ t : Fin 4, ∑ l : Fin 128, g (tileCol s t l) := by
    rw [Fintype.sum_prod_type, Fintype.sum_prod_type]
    rfl
  rw [← h1]
  exact Fintype.sum_equiv tileEquiv _ _ (fun _ => rfl)

theorem rowB_row (b : Fin 32) (c : Fin 256) : rowB (row b c) = b := by
  have := b.isLt; have := c.isLt
  refine Fin.ext ?_
  simp only [rowB, row]
  omega

theorem rowC_row (b : Fin 32) (c : Fin 256) : rowC (row b c) = c := by
  have := b.isLt; have := c.isLt
  refine Fin.ext ?_
  simp only [rowC, row]
  omega

/-- The two pooled vectors agree, at every extended-real input. -/
theorem rpool_eq_kpool (X0 X1 : SFeat.Idx → EReal) (b : Fin 32) (c : Fin 256) :
    rpool (partialSum (flat X0) (flat X1)) b c = kpool X0 X1 b c := by
  unfold rpool kpool
  congr 1
  have hP : ∀ s : Fin 2, partialSum (flat X0) (flat X1) (ix3 s (row b c) (0 : Fin 1))
      = ∑ t : Fin 4, ∑ l : Fin 128, (X0 (ix4 b c (pixH (tileCol s t l)) (pixW (tileCol s t l)))
          + X1 (ix4 b c (pixH (tileCol s t l)) (pixW (tileCol s t l)))) := by
    intro s
    show partialc (flat X0) (flat X1) s (row b c) = _
    unfold partialc
    refine Finset.sum_congr rfl fun t _ => Finset.sum_congr rfl fun l _ => ?_
    show X0 (ix4 (rowB (row b c)) (rowC (row b c)) _ _) + X1 (ix4 (rowB (row b c)) (rowC (row b c)) _ _) = _
    rw [rowB_row, rowC_row]
  rw [Finset.sum_congr rfl fun s _ => hP s]
  rw [sum_tiles (fun k => X0 (ix4 b c (pixH k) (pixW k)) + X1 (ix4 b c (pixH k) (pixW k)))]
  exact Finset.sum_add_distrib

/-! ## Softmax over two branches against the logistic function, on the reals -/

/-- The mixing identity for real operands. -/
theorem mix_real (x0 x1 l0 l1 : ℝ) :
    x0 * (Real.exp (l0 - max l0 l1) * (1 / (Real.exp (l0 - max l0 l1) + Real.exp (l1 - max l0 l1))))
      + x1 * (Real.exp (l1 - max l0 l1) * (1 / (Real.exp (l0 - max l0 l1) + Real.exp (l1 - max l0 l1))))
      = x1 + (1 + Real.exp (-(l0 - l1)))⁻¹ * (x0 - x1) := by
  have ha : 0 < Real.exp (l0 - max l0 l1) := Real.exp_pos _
  have hb : 0 < Real.exp (l1 - max l0 l1) := Real.exp_pos _
  have hE : Real.exp (-(l0 - l1)) = Real.exp (l1 - max l0 l1) / Real.exp (l0 - max l0 l1) := by
    rw [← Real.exp_sub]; congr 1; ring
  rw [hE]
  have hab : Real.exp (l0 - max l0 l1) + Real.exp (l1 - max l0 l1) ≠ 0 := (add_pos ha hb).ne'
  have h1 : 1 + Real.exp (l1 - max l0 l1) / Real.exp (l0 - max l0 l1) ≠ 0 := by positivity
  field_simp
  ring

/-- The same on the extended reals, at operands that are real. -/
theorem mix_coe (x0 x1 l0 l1 : ℝ) :
    (x0 : EReal) * Ideal.div (Ideal.exp ((l0 : EReal) - max (l0 : EReal) (l1 : EReal)))
        (Ideal.exp ((l0 : EReal) - max (l0 : EReal) (l1 : EReal)) + Ideal.exp ((l1 : EReal) - max (l0 : EReal) (l1 : EReal)))
      + (x1 : EReal) * Ideal.div (Ideal.exp ((l1 : EReal) - max (l0 : EReal) (l1 : EReal)))
        (Ideal.exp ((l0 : EReal) - max (l0 : EReal) (l1 : EReal)) + Ideal.exp ((l1 : EReal) - max (l0 : EReal) (l1 : EReal)))
      = (x1 : EReal) + Ideal.logistic ((l0 : EReal) - (l1 : EReal)) * ((x0 : EReal) - (x1 : EReal)) := by
  have hab : Real.exp (l0 - max l0 l1) + Real.exp (l1 - max l0 l1) ≠ 0 :=
    (add_pos (Real.exp_pos _) (Real.exp_pos _)).ne'
  have hmax : max (l0 : EReal) (l1 : EReal) = ((max l0 l1 : ℝ) : EReal) :=
    (EReal.coe_strictMono.monotone.map_max).symm
  rw [hmax]
  simp only [← EReal.coe_sub, Ideal.exp_coe, ← EReal.coe_add, Ideal.div_coe hab, Ideal.logistic_coe, ← EReal.coe_mul]
  exact congrArg _ (mix_real x0 x1 l0 l1)

/-! ## Real inputs give real logits -/

theorem IsReal.max {a b : EReal} (ha : IsReal a) (hb : IsReal b) : IsReal (max a b) := by
  rcases max_choice a b with h | h <;> rw [h] <;> assumption

theorem isReal_sc : IsReal sc := by
  unfold sc Ideal.ofBits
  exact isReal_ieee 8 23 _ (by decide)

theorem isReal_kpool (X0 X1 : SFeat.Idx → EReal) (h0 : ∀ i, IsReal (X0 i)) (h1 : ∀ i, IsReal (X1 i)) (b : Fin 32) (c : Fin 256) :
    IsReal (kpool X0 X1 b c) :=
  ((IsReal.sum _ _ fun _ => h0 _).add (IsReal.sum _ _ fun _ => h1 _)).mul isReal_sc

theorem isReal_hid (P : Fin 32 → Fin 256 → EReal) (W1 : SW1.Idx → EReal) (hP : ∀ b c, IsReal (P b c)) (hW : ∀ i, IsReal (W1 i))
    (b : Fin 32) (j : Fin 32) : IsReal (hid P W1 b j) :=
  IsReal.max (IsReal.sum _ _ fun _ => (hP _ _).mul (hW _)) IsReal.zero

theorem isReal_logit (P : Fin 32 → Fin 256 → EReal) (W1 : SW1.Idx → EReal) (W2 : SW2.Idx → EReal) (hP : ∀ b c, IsReal (P b c))
    (hW1 : ∀ i, IsReal (W1 i)) (hW2 : ∀ i, IsReal (W2 i)) (b : Fin 32) (n : Fin 512) : IsReal (logit P W1 W2 b n) :=
  IsReal.sum _ _ fun _ => (isReal_hid P W1 hP hW1 _ _).mul (hW2 _)

/-! ## The two closed forms are one function of real inputs -/

theorem REF_eq_SKF (X0 X1 : SFeat.Idx → EReal) (W1 : SW1.Idx → EReal) (W2 : SW2.Idx → EReal)
    (h0 : ∀ i, IsReal (X0 i)) (h1 : ∀ i, IsReal (X1 i)) (hW1 : ∀ i, IsReal (W1 i)) (hW2 : ∀ i, IsReal (W2 i)) :
    REF X0 X1 W1 W2 = SKF X0 X1 W1 W2 := by
  funext i
  show refc X0 X1 W1 W2 (i 0) (i 1) (i 2) (i 3) = skf X0 X1 W1 W2 (i 0) (i 1) (i 2) (i 3)
  generalize (i 0 : Fin 32) = b
  generalize (i 1 : Fin 256) = c
  generalize (i 2 : Fin 32) = h
  generalize (i 3 : Fin 32) = w
  have hL : rlogit X0 X1 W1 W2 = logit (kpool X0 X1) W1 W2 := by
    unfold rlogit
    exact congrArg (fun P => logit P W1 W2) (funext fun b => funext fun c => rpool_eq_kpool X0 X1 b c)
  unfold refc skf attnc
  rw [hL]
  obtain ⟨x0, hx0⟩ := h0 (ix4 b c h w)
  obtain ⟨x1, hx1⟩ := h1 (ix4 b c h w)
  obtain ⟨l0, hl0⟩ := isReal_logit (kpool X0 X1) W1 W2 (isReal_kpool X0 X1 h0 h1) hW1 hW2 b (col 0 c)
  obtain ⟨l1, hl1⟩ := isReal_logit (kpool X0 X1) W1 W2 (isReal_kpool X0 X1 h0 h1) hW1 hW2 b (col 1 c)
  rw [hx0, hx1, hl0, hl1]
  exact mix_coe x0 x1 l0 l1

end Cert.Spec

end
-- ==== Proof.Finite.lean ====
/-
  From the precondition to real inputs.

  The precondition tests, for each of the four input arrays, that every entry's absolute value is below +∞, and joins
  the four tests by "and". On the extended reals |x| = max x (−x) is +∞ exactly at the two infinities, so an entry
  passing the test is a real number.
-/
import proofs.«169458_g2000706281692390_pallasbulk_37_19_alg».proof.Pre_finite_inputs
import proofs.«169458_g2000706281692390_pallasbulk_37_19_alg».proof.Proof.Gen.Pre_finite_inputs
import proofs.«169458_g2000706281692390_pallasbulk_37_19_alg».proof.Proof.LibIsReal
import Idealize.ShloMosaic.Lib.ReduceAll
import Idealize.ShloMosaic.Lib.Affine
import Idealize.ShloMosaic.Lib.ValueIdx

noncomputable section

namespace Cert.Finite

open Idealize.ShloMosaic Cert.Pre_finite_inputs

instance : Subsingleton S_.Idx := ⟨fun a b => funext fun d => d.elim0⟩

/-- The word 0x7F800000 is +∞. -/
theorem ofBits_inf : Ideal.ofBits .f32 0x7F800000#32 = (⊤ : EReal) := by
  simp [Ideal.ofBits, Ideal.ieee]

/-- An extended real whose absolute value is below +∞ is a real number. -/
theorem isReal_of_abs_lt (x : EReal) (h : Ideal.cmp .olt (max x (-x)) (Ideal.ofBits .f32 0x7F800000#32) = 1#1) : IsReal x := by
  rw [ofBits_inf] at h
  have hlt : max x (-x) < ⊤ := by
    by_contra hn
    simp [Ideal.cmp, hn] at h
  induction x using EReal.rec with
  | bot => exact absurd hlt (by simp)
  | top => exact absurd hlt (by simp)
  | coe r => exact ⟨r, rfl⟩

/-- Under the precondition every entry of every input is a real number. -/
theorem real_of_pre (a0 a1 : FVec Ideal S32x256x32x32 .f32) (a2 : FVec Ideal S256x32 .f32) (a3 : FVec Ideal S32x512 .f32)
    (h : fn (F := Ideal) a0 a1 a2 a3 = fun _ => 1#1) :
    (∀ i, IsReal (a0 i)) ∧ (∀ i, IsReal (a1 i)) ∧ (∀ i, IsReal (a2 i)) ∧ (∀ i, IsReal (a3 i)) := by
  have h' := congrFun h ValueIdx.ix0
  dsimp only [fn, fn_part1] at h'
  obtain ⟨h012, h3⟩ := IntOp.andi_eq_one.1 h'
  obtain ⟨h01, h2⟩ := IntOp.andi_eq_one.1 h012
  obtain ⟨h0, h1⟩ := IntOp.andi_eq_one.1 h01
  exact ⟨fun i => isReal_of_abs_lt (a0 i) (Host.reduce_andi_all _ _ _ _ _ h0 i),
    fun i => isReal_of_abs_lt (a1 i) (Host.reduce_andi_all _ _ _ _ _ h1 i),
    fun i => isReal_of_abs_lt (a2 i) (Host.reduce_andi_all _ _ _ _ _ h2 i),
    fun i => isReal_of_abs_lt (a3 i) (Host.reduce_andi_all _ _ _ _ _ h3 i)⟩

end Cert.Finite

end
-- ==== Proof.lean ====
/- Selective-kernel fusion: the fused kernel against the two-pass reference.

   Both programs take two feature maps [32, 256, 32, 32] and two weight matrices, average the maps' sum over the
   pixels, run a two-layer perceptron on the pooled vector and mix the maps per (batch, channel). The kernel mixes by
   x₁ + σ(l₀ − l₁)·(x₀ − x₁) on a channels-minor view, one batch block per grid point; the reference pools in a first
   pass over column tiles, computes a two-branch softmax on the host and mixes by x₀·a₀ + x₁·a₁ in a second pass.
   On the extended reals the two results are one function of inputs that are real numbers: the pooled sums agree by
   regrouping (no finiteness), the two mixing formulas by a field identity (finiteness needed, and given by the
   precondition). Proof/Spec.lean states both closed forms, Proof/Law.lean joins them, Proof/Finite.lean reads the
   precondition, Proof/KernelRun.lean and Proof/RefRun.lean show each program ends at its closed form. The frames
   are the programs' frame certificates; the idealization rewrote nothing, so nothing is owed for it. -/
import proofs.«169458_g2000706281692390_pallasbulk_37_19_alg».proof.Defs
import proofs.«169458_g2000706281692390_pallasbulk_37_19_alg».proof.Proof.Gen.Kernel
import proofs.«169458_g2000706281692390_pallasbulk_37_19_alg».proof.Proof.Gen.Kernel.Frame
import proofs.«169458_g2000706281692390_pallasbulk_37_19_alg».proof.Proof.Gen.KernelIdeal
import proofs.«169458_g2000706281692390_pallasbulk_37_19_alg».proof.Proof.Gen.KernelIdeal.Frame
import proofs.«169458_g2000706281692390_pallasbulk_37_19_alg».proof.Proof.Gen.ReferenceIdeal
import proofs.«169458_g2000706281692390_pallasbulk_37_19_alg».proof.Proof.Gen.ReferenceIdeal.Frame
import proofs.«169458_g2000706281692390_pallasbulk_37_19_alg».proof.Proof.Gen.Pre_finite_inputs
import proofs.«169458_g2000706281692390_pallasbulk_37_19_alg».proof.Proof.KernelRun
import proofs.«169458_g2000706281692390_pallasbulk_37_19_alg».proof.Proof.RefRun
import proofs.«169458_g2000706281692390_pallasbulk_37_19_alg».proof.Proof.Law
import proofs.«169458_g2000706281692390_pallasbulk_37_19_alg».proof.Proof.Finite
import Idealize.ShloMosaic.Adequacy
import Idealize.ShloMosaic.Init

noncomputable section

namespace Cert.Proof

open Idealize.ShloMosaic Idealize.SL.Sem

/-- From memories that agree on the arguments both idealized programs end with the kernel's closed form of the
    arguments: the kernel by its own run, the reference because its softmax form is the same function of real inputs. -/
theorem algebraic : Cert.algebraic_KernelIdeal_ReferenceIdeal := by
  intro m ρ m' ρ' hpre hagree
  refine ⟨fun c => Cert.Spec.SKF
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelRun.kernel_run m ρ, ?_⟩
  refine (θ_run Cert.ReferenceIdeal.defs _ _).mono (fun r h c => ⟨(h c).1.trans ?_, (h c).2⟩)
    (Cert.RefRun.ref_run m' ρ')
  obtain ⟨h0, h1, h2, h3⟩ := Cert.Finite.real_of_pre _ _ _ _ (hpre c)
  rw [(hagree c).1, (hagree c).2.1, (hagree c).2.2.1, (hagree c).2.2.2]
  exact Cert.Spec.REF_eq_SKF _ _ _ _ h0 h1 h2 h3

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => Cert.ReferenceIdeal.Gen.frame m ρ,
    trivial,
    algebraic⟩

end Cert.Proof

end
